-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x600000 32) (main_arg2 : FVec F S600000 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩

abbrev nBuf : Space → Nat
  | .hbm => 127
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S100000, .i32⟩
  | .hbm, ⟨14, _⟩ => ⟨S700000, .i32⟩
  | .hbm, ⟨15, _⟩ => ⟨S700000, .i32⟩
  | .hbm, ⟨16, _⟩ => ⟨S_, .f32⟩
  | .hbm, ⟨17, _⟩ => ⟨S100000, .f32⟩
  | .hbm, ⟨18, _⟩ => ⟨S700000, .f32⟩
  | .hbm, ⟨19, _⟩ => ⟨S_, .f32⟩
  | .hbm, ⟨20, _⟩ => ⟨S100000, .f32⟩
  | .hbm, ⟨21, _⟩ => ⟨S700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S700000, .i32⟩
  | .hbm, ⟨33, _⟩ => ⟨S700000, .i1⟩
  | .hbm, ⟨34, _⟩ => ⟨S_, .i32⟩
  | .hbm, ⟨35, _⟩ => ⟨S700000, .i32⟩
  | .hbm, ⟨36, _⟩ => ⟨S700000, .i32⟩
  | .hbm, ⟨37, _⟩ => ⟨S700000, .i32⟩
  | .hbm, ⟨38, _⟩ => ⟨S700000x1, .i32⟩
  | .hbm, ⟨39, _⟩ => ⟨S700000, .f32⟩
  | .hbm, ⟨40, _⟩ => ⟨S700000, .f32⟩
  | .hbm, ⟨41, _⟩ => ⟨S_, .i32⟩
  | .hbm, ⟨42, _⟩ => ⟨S700000, .i32⟩
  | .hbm, ⟨43, _⟩ => ⟨S700000, .i1⟩
  | .hbm, ⟨44, _⟩ => ⟨S_, .i32⟩
  | .hbm, ⟨45, _⟩ => ⟨S700000, .i32⟩
  | .hbm, ⟨46, _⟩ => ⟨S700000, .i32⟩
  | .hbm, ⟨47, _⟩ => ⟨S700000, .i32⟩
  | .hbm, ⟨48, _⟩ => ⟨S700000x1, .i32⟩
  | .hbm, ⟨49, _⟩ => ⟨S700000, .f32⟩
  | .hbm, ⟨50, _⟩ => ⟨S700000, .f32⟩
  | .hbm, ⟨51, _⟩ => ⟨S100000x128, .f32⟩
  | .hbm, ⟨52, _⟩ => ⟨S_, .i32⟩
  | .hbm, ⟨53, _⟩ => ⟨S700000, .i32⟩
  | .hbm, ⟨54, _⟩ => ⟨S700000, .i1⟩
  | .hbm, ⟨55, _⟩ => ⟨S_, .i32⟩
  | .hbm, ⟨56, _⟩ => ⟨S700000, .i32⟩
  | .hbm, ⟨57, _⟩ => ⟨S700000, .i32⟩
  | .hbm, ⟨58, _⟩ => ⟨S700000, .i32⟩
  | .hbm, ⟨59, _⟩ => ⟨S700000x1, .i32⟩
  | .hbm, ⟨60, _⟩ => ⟨S700000x128, .f32⟩
  | .hbm, ⟨61, _⟩ => ⟨S700000x1, .f32⟩
  | .hbm, ⟨62, _⟩ => ⟨S700000x128, .f32⟩
  | .hbm, ⟨63, _⟩ => ⟨S700000x128, .f32⟩
  | .hbm, ⟨64, _⟩ => ⟨S_, .f32⟩
  | .hbm, ⟨65, _⟩ => ⟨S100000x128, .f32⟩
  | .hbm, ⟨66, _⟩ => ⟨S700000x1, .i32⟩
  | .hbm, ⟨67, _⟩ => ⟨S100000x128, .f32⟩
  | .hbm, ⟨68, _⟩ => ⟨S100000x128, .f32⟩
  | .hbm, ⟨69, _⟩ => ⟨S100000, .i32⟩
  | .hbm, ⟨70, _⟩ => ⟨S700000, .i32⟩
  | .hbm, ⟨71, _⟩ => ⟨S700000, .i32⟩
  | .hbm, ⟨72, _⟩ => ⟨S_, .f32⟩
  | .hbm, ⟨73, _⟩ => ⟨S100000, .f32⟩
  | .hbm, ⟨74, _⟩ => ⟨S700000, .f32⟩
  | .hbm, ⟨75, _⟩ => ⟨S_, .f32⟩
  | .hbm, ⟨76, _⟩ => ⟨S100000, .f32⟩
  | .hbm, ⟨77, _⟩ => ⟨S700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S700000, .i32⟩
  | .hbm, ⟨89, _⟩ => ⟨S700000, .i1⟩
  | .hbm, ⟨90, _⟩ => ⟨S_, .i32⟩
  | .hbm, ⟨91, _⟩ => ⟨S700000, .i32⟩
  | .hbm, ⟨92, _⟩ => ⟨S700000, .i32⟩
  | .hbm, ⟨93, _⟩ => ⟨S700000, .i32⟩
  | .hbm, ⟨94, _⟩ => ⟨S700000x1, .i32⟩
  | .hbm, ⟨95, _⟩ => ⟨S700000, .f32⟩
  | .hbm, ⟨96, _⟩ => ⟨S700000, .f32⟩
  | .hbm, ⟨97, _⟩ => ⟨S_, .i32⟩
  | .hbm, ⟨98, _⟩ => ⟨S700000, .i32⟩
  | .hbm, ⟨99, _⟩ => ⟨S700000, .i1⟩
  | .hbm, ⟨100, _⟩ => ⟨S_, .i32⟩
  | .hbm, ⟨101, _⟩ => ⟨S700000, .i32⟩
  | .hbm, ⟨102, _⟩ => ⟨S700000, .i32⟩
  | .hbm, ⟨103, _⟩ => ⟨S700000, .i32⟩
  | .hbm, ⟨104, _⟩ => ⟨S700000x1, .i32⟩
  | .hbm, ⟨105, _⟩ => ⟨S700000, .f32⟩
  | .hbm, ⟨106, _⟩ => ⟨S700000, .f32⟩
  | .hbm, ⟨107, _⟩ => ⟨S100000x128, .f32⟩
  | .hbm, ⟨108, _⟩ => ⟨S_, .i32⟩
  | .hbm, ⟨109, _⟩ => ⟨S700000, .i32⟩
  | .hbm, ⟨110, _⟩ => ⟨S700000, .i1⟩
  | .hbm, ⟨111, _⟩ => ⟨S_, .i32⟩
  | .hbm, ⟨112, _⟩ => ⟨S700000, .i32⟩
  | .hbm, ⟨113, _⟩ => ⟨S700000, .i32⟩
  | .hbm, ⟨114, _⟩ => ⟨S700000, .i32⟩
  | .hbm, ⟨115, _⟩ => ⟨S700000x1, .i32⟩
  | .hbm, ⟨116, _⟩ => ⟨S700000x128, .f32⟩
  | .hbm, ⟨117, _⟩ => ⟨S700000x1, .f32⟩
  | .hbm, ⟨118, _⟩ => ⟨S700000x128, .f32⟩
  | .hbm, ⟨119, _⟩ => ⟨S700000x128, .f32⟩
  | .hbm, ⟨120, _⟩ => ⟨S_, .f32⟩
  | .hbm, ⟨121, _⟩ => ⟨S100000x128, .f32⟩
  | .hbm, ⟨122, _⟩ => ⟨S700000x1, .i32⟩
  | .hbm, ⟨123, _⟩ => ⟨S100000x128, .f32⟩
  | .hbm, ⟨124, _⟩ => ⟨S100000x128, .f32⟩
  | .hbm, ⟨125, _⟩ => ⟨S100000x128, .f32⟩
  | .hbm, ⟨126, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_c_14 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_17 : Ref sig .tc := ⟨.hbm, 108, rfl⟩
abbrev main_v76 : Ref sig .tc := ⟨.hbm, 109, rfl⟩
abbrev main_v77 : Ref sig .tc := ⟨.hbm, 110, rfl⟩
abbrev main_c_18 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v88) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v89) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v90) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v91) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S1x600000 : Shape := ⟨2, ![1, 600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x600000, .i32⟩
  | 2 => ⟨S600000, .f32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x600000, .i32⟩
  | 10 => ⟨S600000, .i32⟩
  | 11 => ⟨S1x600000, .i32⟩
  | 12 => ⟨S600000, .i32⟩
  | 13 => ⟨S100000, .i32⟩
  | 14 => ⟨S700000, .i32⟩
  | 15 => ⟨S700000, .i32⟩
  | 16 => ⟨S_, .f32⟩
  | 17 => ⟨S100000, .f32⟩
  | 18 => ⟨S700000, .f32⟩
  | 19 => ⟨S_, .f32⟩
  | 20 => ⟨S100000, .f32⟩
  | 21 => ⟨S700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S700000, .i32⟩
  | 33 => ⟨S700000, .i1⟩
  | 34 => ⟨S_, .i32⟩
  | 35 => ⟨S700000, .i32⟩
  | 36 => ⟨S700000, .i32⟩
  | 37 => ⟨S700000, .i32⟩
  | 38 => ⟨S700000x1, .i32⟩
  | 39 => ⟨S700000, .f32⟩
  | 40 => ⟨S700000, .f32⟩
  | 41 => ⟨S_, .i32⟩
  | 42 => ⟨S700000, .i32⟩
  | 43 => ⟨S700000, .i1⟩
  | 44 => ⟨S_, .i32⟩
  | 45 => ⟨S700000, .i32⟩
  | 46 => ⟨S700000, .i32⟩
  | 47 => ⟨S700000, .i32⟩
  | 48 => ⟨S700000x1, .i32⟩
  | 49 => ⟨S700000, .f32⟩
  | 50 => ⟨S700000, .f32⟩
  | 51 => ⟨S100000x128, .f32⟩
  | 52 => ⟨S_, .i32⟩
  | 53 => ⟨S700000, .i32⟩
  | 54 => ⟨S700000, .i1⟩
  | 55 => ⟨S_, .i32⟩
  | 56 => ⟨S700000, .i32⟩
  | 57 => ⟨S700000, .i32⟩
  | 58 => ⟨S700000, .i32⟩
  | 59 => ⟨S700000x1, .i32⟩
  | 60 => ⟨S700000x128, .f32⟩
  | 61 => ⟨S700000x1, .f32⟩
  | 62 => ⟨S700000x128, .f32⟩
  | 63 => ⟨S700000x128, .f32⟩
  | 64 => ⟨S_, .f32⟩
  | 65 => ⟨S100000x128, .f32⟩
  | 66 => ⟨S700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000, .i32⟩
  | 75 => ⟨S700000, .i32⟩
  | 76 => ⟨S700000, .i32⟩
  | 77 => ⟨S_, .f32⟩
  | 78 => ⟨S100000, .f32⟩
  | 79 => ⟨S700000, .f32⟩
  | 80 => ⟨S_, .f32⟩
  | 81 => ⟨S100000, .f32⟩
  | 82 => ⟨S700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S700000, .i32⟩
  | 94 => ⟨S700000, .i1⟩
  | 95 => ⟨S_, .i32⟩
  | 96 => ⟨S700000, .i32⟩
  | 97 => ⟨S700000, .i32⟩
  | 98 => ⟨S700000, .i32⟩
  | 99 => ⟨S700000x1, .i32⟩
  | 100 => ⟨S700000, .f32⟩
  | 101 => ⟨S700000, .f32⟩
  | 102 => ⟨S_, .i32⟩
  | 103 => ⟨S700000, .i32⟩
  | 104 => ⟨S700000, .i1⟩
  | 105 => ⟨S_, .i32⟩
  | 106 => ⟨S700000, .i32⟩
  | 107 => ⟨S700000, .i32⟩
  | 108 => ⟨S700000, .i32⟩
  | 109 => ⟨S700000x1, .i32⟩
  | 110 => ⟨S700000, .f32⟩
  | 111 => ⟨S700000, .f32⟩
  | 112 => ⟨S100000x128, .f32⟩
  | 113 => ⟨S_, .i32⟩
  | 114 => ⟨S700000, .i32⟩
  | 115 => ⟨S700000, .i1⟩
  | 116 => ⟨S_, .i32⟩
  | 117 => ⟨S700000, .i32⟩
  | 118 => ⟨S700000, .i32⟩
  | 119 => ⟨S700000, .i32⟩
  | 120 => ⟨S700000x1, .i32⟩
  | 121 => ⟨S700000x128, .f32⟩
  | 122 => ⟨S700000x1, .f32⟩
  | 123 => ⟨S700000x128, .f32⟩
  | 124 => ⟨S700000x128, .f32⟩
  | 125 => ⟨S_, .f32⟩
  | 126 => ⟨S100000x128, .f32⟩
  | 127 => ⟨S700000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_9 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_11 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KernelRun.lean ====
/-
  The kernel program's run with its result named.

  The program is six pipelined regions among stretches of host operations. Its run ends with every buffer that is
  not scoped to a region holding the contents the last boundary assigns it: the launch memory pushed through each
  host stretch and each region's write-backs in turn. Read at the result buffer this names the program's result;
  read at an argument it gives back the launch contents, since nothing writes an argument.
-/
import proofs.«108665_j1778116460904_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; its result buffer ends at the last
    boundary's contents and its arguments as launched. -/
theorem run_named : θ_run defs (onTc (τ := τ) (main (F := F))) ⟨m, fun _ => 0, ρ⟩ (fun r => ∀ c : Dev nD,
      r.2.mem ((c.tc : Thread nD τ).loc main_v91) = W14 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v91 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.Net

end
-- ==== Proof.AggKernel.lean ====
/-
  One round of neighbourhood aggregation, as the kernel program's host operations spell it.

  The edge list `e` holds a source row and a target row of 600000 node numbers; 100000 self loops (node n to node n,
  weight 1) are appended to both and to the edge weights `w`. The degree of a node is the sum of the weights of the
  edges that end in it; an edge's scale is rsqrt(deg src) · weight · rsqrt(deg dst), with rsqrt read as 0 at a degree
  that is not positive. The aggregation of node features `h` adds, into row n, the scaled feature rows `h[src]` of
  all edges with target n. Negative node numbers are wrapped once by 100000 before a row is fetched, as the host's
  indexing does. Nothing here is opened by the proof: both programs apply this same function, and only the value
  `h` going in differs in how it was computed.
-/
import proofs.«108665_j1778116460904_1_alg».proof.Proof.Gen.KernelIdeal

noncomputable section

namespace Cert.KernelIdeal.Agg

open Cert.KernelIdeal Cert.KernelIdeal.Gen Idealize.ShloMosaic

variable {F : FTy → Type} [FloatOps F]

/-- The edge list's source row. -/
def row0 (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- The edge list's target row. -/
def row1 (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- A row of node numbers with the 100000 self loops appended. -/
def withLoops (r : (⟨S600000, .i32⟩ : BufTy).Contents (Elt F)) : (⟨S700000, .i32⟩ : BufTy).Contents (Elt F) :=
  concatenate S700000 0 [⟨S600000, r⟩, ⟨S100000, (iotaInDim S100000 32 0)⟩] concatenates_S600000_S100000_S700000_d0

/-- The edge weights with weight 1 appended for every self loop. -/
def weights (w : (⟨S600000, .f32⟩ : BufTy).Contents (Elt F)) : (⟨S700000, .f32⟩ : BufTy).Contents (Elt F) :=
  concatenate S700000 0 [⟨S600000, w⟩, ⟨S100000, (broadcastInDim S100000 ![] bcast_S_S100000 (constant S_ .f32 0x3F800000#32))⟩] concatenates_S600000_S100000_S700000_d0

/-- The degree of every node: the sum of the weights `wf` of the edges whose target `d` it is. -/
def deg (d : (⟨S700000, .i32⟩ : BufTy).Contents (Elt F)) (wf : (⟨S700000, .f32⟩ : BufTy).Contents (Elt F)) : (⟨S100000, .f32⟩ : BufTy).Contents (Elt F) :=
  Host.scatterAdd scatter_S100000_S700000x1_S700000_n_0_0_1 (broadcastInDim S100000 ![] bcast_S_S100000 (constant S_ .f32 0x00000000#32)) (broadcastInDim S700000x1 ![0] bcast_S700000_S700000x1_0 d) wf

/-- rsqrt of the degree where the degree is positive, 0 elsewhere. -/
def dinv (d : (⟨S700000, .i32⟩ : BufTy).Contents (Elt F)) (wf : (⟨S700000, .f32⟩ : BufTy).Contents (Elt F)) : (⟨S100000, .f32⟩ : BufTy).Contents (Elt F) :=
  select (cmpf .ogt (deg d wf) (broadcastInDim S100000 ![] bcast_S_S100000 (constant S_ .f32 0x00000000#32))) (Host.rsqrt (deg d wf)) (broadcastInDim S100000 ![] bcast_S_S100000 (id (constant S_ .f32 0x00000000#32)))

/-- Every edge's scale from the per-node factor `dv`: dv[src] · weight · dv[dst], node numbers wrapped. -/
def scaleCore (dv : (⟨S100000, .f32⟩ : BufTy).Contents (Elt F)) (s d : (⟨S700000, .i32⟩ : BufTy).Contents (Elt F)) (wf : (⟨S700000, .f32⟩ : BufTy).Contents (Elt F)) : (⟨S700000, .f32⟩ : BufTy).Contents (Elt F) :=
  mulf (mulf (Host.gather gather_S100000_S700000x1_S700000_n_0_n_n_0_1_1 dv (broadcastInDim S700000x1 ![0] bcast_S700000_S700000x1_0 (select (cmpi .slt s (broadcastInDim S700000 ![] bcast_S_S700000 (constantI S_ 32 0#32))) (addi s (broadcastInDim S700000 ![] bcast_S_S700000 (constantI S_ 32 100000#32))) s))) wf) (Host.gather gather_S100000_S700000x1_S700000_n_0_n_n_0_1_1 dv (broadcastInDim S700000x1 ![0] bcast_S700000_S700000x1_0 (select (cmpi .slt d (broadcastInDim S700000 ![] bcast_S_S700000 (constantI S_ 32 0#32))) (addi d (broadcastInDim S700000 ![] bcast_S_S700000 (constantI S_ 32 100000#32))) d)))

/-- Every edge's scale rsqrt(deg src) · weight · rsqrt(deg dst), from the source nodes `s`, the target nodes `d` and
    the weights `wf` of all 700000 edges. -/
def scale (s d : (⟨S700000, .i32⟩ : BufTy).Contents (Elt F)) (wf : (⟨S700000, .f32⟩ : BufTy).Contents (Elt F)) : (⟨S700000, .f32⟩ : BufTy).Contents (Elt F) :=
  scaleCore (dinv d wf) s d wf

/-- The zero array with, for every edge, the source row of `h` times the edge's scale added into the target row. -/
def core (d s : (⟨S700000, .i32⟩ : BufTy).Contents (Elt F)) (nrm : (⟨S700000, .f32⟩ : BufTy).Contents (Elt F)) (h : (⟨S100000x128, .f32⟩ : BufTy).Contents (Elt F)) : (⟨S100000x128, .f32⟩ : BufTy).Contents (Elt F) :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 d)
    (mulf (Host.gather gather_S100000x128_S700000x1_S700000x128_1_0_n_n_0_1_1128 h (broadcastInDim S700000x1 ![0] bcast_S700000_S700000x1_0 (select (cmpi .slt s (broadcastInDim S700000 ![] bcast_S_S700000 (constantI S_ 32 0#32))) (addi s (broadcastInDim S700000 ![] bcast_S_S700000 (constantI S_ 32 100000#32))) s)))
      (broadcastInDim S700000x128 ![0, 1] bcast_S700000x1_S700000x128_0_1 (broadcastInDim S700000x1 ![0] bcast_S700000_S700000x1_0 nrm)))

/-- The aggregation of the features `h` over the graph with edge list `e` and edge weights `w`. -/
def agg (e : (⟨S2x600000, .i32⟩ : BufTy).Contents (Elt F)) (w : (⟨S600000, .f32⟩ : BufTy).Contents (Elt F)) (h : (⟨S100000x128, .f32⟩ : BufTy).Contents (Elt F)) : (⟨S100000x128, .f32⟩ : BufTy).Contents (Elt F) :=
  core (withLoops (row1 e)) (withLoops (row0 e)) (scale (withLoops (row0 e)) (withLoops (row1 e)) (weights w)) h

end Cert.KernelIdeal.Agg

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«108665_j1778116460904_1_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.GraphNet.lean ====
/-
  The dense pieces of the network, on the extended reals, as whole-array functions read at an entry.

  A feature array has 100000 rows (nodes) and 128 columns. `dense A B` is the product of a feature array with a
  128 × 128 weight matrix: entry (a, b) is the sum over k of A[a,k] · B[k,b]. `addBias X v` adds the bias v[b] to
  every entry of column b. `relu X` is the entrywise maximum with zero.
-/
import proofs.«108665_j1778116460904_1_alg».proof.Proof.LibPlainDot

noncomputable section

open scoped BigOperators

namespace GraphNet

open Idealize.ShloMosaic Idealize.ShloMosaic.ValueIdx

/-- A product of a 100000 × 128 array with a 128 × 128 matrix, rows against columns. -/
def dense (A : FVec Ideal ⟨2, ![100000, 128]⟩ .f32) (B : FVec Ideal ⟨2, ![128, 128]⟩ .f32) :
    FVec Ideal ⟨2, ![100000, 128]⟩ .f32 :=
  FloatOps.dotGeneral (DotDims.plain 100000 128 128) none .single A B

theorem dense_entry (A : FVec Ideal ⟨2, ![100000, 128]⟩ .f32) (B : FVec Ideal ⟨2, ![128, 128]⟩ .f32)
    (a : Fin 100000) (b : Fin 128) : dense A B (ix2 a b) = ∑ k : Fin 128, A (ix2 a k) * B (ix2 k b) :=
  PlainDot.dotGeneral_apply_entry none .single A B a b

/-- The bias vector added along the rows: entry (a, b) gains v[b]. -/
def addBias (X : FVec Ideal ⟨2, ![100000, 128]⟩ .f32) (v : FVec Ideal ⟨1, ![128]⟩ .f32) :
    FVec Ideal ⟨2, ![100000, 128]⟩ .f32 :=
  fun i => X i + v (ix1 (n := 128) (i 1))

theorem addBias_entry (X : FVec Ideal ⟨2, ![100000, 128]⟩ .f32) (v : FVec Ideal ⟨1, ![128]⟩ .f32)
    (a : Fin 100000) (b : Fin 128) : addBias X v (ix2 a b) = X (ix2 a b) + v (ix1 b) := rfl

/-- The entrywise maximum with zero. -/
def relu (X : FVec Ideal ⟨2, ![100000, 128]⟩ .f32) : FVec Ideal ⟨2, ![100000, 128]⟩ .f32 :=
  fun i => max (X i) (Ideal.ofBits .f32 0x00000000#32)

theorem relu_entry (X : FVec Ideal ⟨2, ![100000, 128]⟩ .f32) (i : (⟨2, ![100000, 128]⟩ : Shape).Idx) :
    relu X i = max (X i) (Ideal.ofBits .f32 0x00000000#32) := rfl

end GraphNet

end
-- ==== Proof.Region0.lean ====
/-
  Region 0: a product of the feature array with a weight matrix, 5000 rows at a time.

  Grid point t stages rows 5000·t … 5000·t + 4999 of the left array and the whole 128 × 128 right matrix, multiplies
  them into a zero accumulator and writes the 5000 × 128 product back as rows 5000·t … 5000·t + 4999 of the output. Entry
  (a, b) of that block is the sum over k of left[5000·t + a, k] · right[k, b], which is entry (5000·t + a, b) of the
  whole product; the 20 blocks tile the output array, so the array ends holding the whole product of the arrays the
  region found.
-/
import proofs.«108665_j1778116460904_1_alg».proof.Proof.Gen.KernelIdeal.Frame
import proofs.«108665_j1778116460904_1_alg».proof.Proof.GraphNet
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

namespace Region0

variable (V : (c : Dev nD) → (b : Ref sig .tc) → Buf (Elt Ideal) ((c : Thread nD τ).loc b))

theorem off_zero : (![0, 0] : Fin 2 → Nat) = fun _ => 0 := funext fun a => by fin_cases a <;> rfl

/-- The body's result at an entry of the block: the row of the staged rows against the column of the matrix. -/
theorem pay_entry (x0 : Vec Ideal S5000x128 .f32) (x1 : Vec Ideal S128x128 .f32) (a : Fin 5000) (b : Fin 128) :
    k0_pay1 x0 x1 (ix2 a b) = ∑ k : Fin 128, x0 (ix2 a k) * x1 (ix2 k b) := by
  unfold k0_pay1
  exact PlainMatmul.matmul_zero_apply none _ _ a b

/-- The windows' block indices at a grid point, decided over the 20 points. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := t.isLt

/-- Where the left window's block sits in its array. -/
theorem emb_left (t : Fin cfg0.N) (a : Fin 5000) (k : Fin 128) (h : t.val * 5000 + a.val < 100000) :
    ((cfg0.win 0).blk t).view.emb (ix2 a k) = ix2 (⟨t.val * 5000 + a.val, h⟩ : Fin 100000) k := by
  obtain ⟨e0, e1, -⟩ := index_facts t
  funext ax; apply Fin.ext
  match ax with
  | ⟨0, _⟩ => show win0_0.index t (0 : Fin 2) * 5000 + 1 * a.val = t.val * 5000 + a.val; rw [e0]; omega
  | ⟨1, _⟩ => show win0_0.index t (1 : Fin 2) * 128 + 1 * k.val = k.val; rw [e1]; omega

/-- The right window's one block is its whole array. -/
theorem emb_right (t : Fin cfg0.N) (k : Fin 128) (b : Fin 128) :
    ((cfg0.win 1).blk t).view.emb (ix2 k b) = ix2 k b := by
  obtain ⟨-, -, e2, e3, -⟩ := index_facts t
  funext ax; apply Fin.ext
  match ax with
  | ⟨0, _⟩ => show win0_1.index t (0 : Fin 2) * 128 + 1 * k.val = k.val; rw [e2]; omega
  | ⟨1, _⟩ => show win0_1.index t (1 : Fin 2) * 128 + 1 * b.val = b.val; rw [e3]; omega

/-- Where the output window's block sits in its array. -/
theorem emb_out (t : Fin cfg0.N) (a : Fin 5000) (b : Fin 128) (h : t.val * 5000 + a.val < 100000) :
    ((cfg0.win 2).blk t).view.emb (ix2 a b) = ix2 (⟨t.val * 5000 + a.val, h⟩ : Fin 100000) b := by
  obtain ⟨-, -, -, -, e4, e5⟩ := index_facts t
  funext ax; apply Fin.ext
  match ax with
  | ⟨0, _⟩ => show win0_2.index t (0 : Fin 2) * 5000 + 1 * a.val = t.val * 5000 + a.val; rw [e4]; omega
  | ⟨1, _⟩ => show win0_2.index t (1 : Fin 2) * 128 + 1 * b.val = b.val; rw [e5]; omega

/-- What point t writes back is block t of the whole product. -/
theorem flushed_eq (c : Dev nD) (t : Fin cfg0.N) :
    (dat0 V c).flushed 2 t = ((cfg0.win 2).blk t).view.read (Elt Ideal)
      (GraphNet.dense (V c (Pipeline.arrRef spec0 0)) (V c (Pipeline.arrRef spec0 1))) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  funext j
  obtain ⟨a, b, rfl⟩ : ∃ (a : Fin 5000) (b : Fin 128), j = ix2 a b := ⟨j 0, j 1, eq_ix2 j⟩
  have ht := point_lt t
  have hab : t.val * 5000 + a.val < 100000 := by have := a.isLt; omega
  show k0_pay1 (iblk0 V c 0 t) (iblk0 V c 1 t) (ix2 a b)
    = GraphNet.dense (V c (Pipeline.arrRef spec0 0)) (V c (Pipeline.arrRef spec0 1)) (((cfg0.win 2).blk t).view.emb (ix2 a b))
  refine (pay_entry (iblk0 V c 0 t) (iblk0 V c 1 t) a b).trans ?_
  rw [emb_out t a b hab, GraphNet.dense_entry]
  refine Finset.sum_congr rfl fun k _ => ?_
  refine congrArg₂ (· * ·) ?_ ?_
  · show V c (Pipeline.arrRef spec0 0) (((cfg0.win 0).blk t).view.emb (ix2 a k)) = _
    rw [emb_left t a k hab]
  · show V c (Pipeline.arrRef spec0 1) (((cfg0.win 1).blk t).view.emb (ix2 k b)) = _
    rw [emb_right t k b]

/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Row r of the output lies in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hq : (i 0).val / 5000 < 20 := by omega
  refine ⟨⟨(i 0).val / 5000, hq⟩, flush0_2 _, ?_⟩
  obtain ⟨-, -, -, -, e4, e5⟩ := index_facts ⟨(i 0).val / 5000, hq⟩
  rw [mem_blk]
  intro a
  match a with
  | ⟨0, _⟩ => show win0_2.index ⟨(i 0).val / 5000, hq⟩ (0 : Fin 2) * 5000 ≤ (i 0).val ∧ (i 0).val < win0_2.index ⟨(i 0).val / 5000, hq⟩ (0 : Fin 2) * 5000 + 5000; rw [e4]; show (i 0).val / 5000 * 5000 ≤ (i 0).val ∧ (i 0).val < (i 0).val / 5000 * 5000 + 5000; omega
  | ⟨1, _⟩ => show win0_2.index ⟨(i 0).val / 5000, hq⟩ (1 : Fin 2) * 128 ≤ (i 1).val ∧ (i 1).val < win0_2.index ⟨(i 0).val / 5000, hq⟩ (1 : Fin 2) * 128 + 128; rw [e5]; omega

/-- The output array after the region: the whole product of the arrays the region found. -/
theorem final (c : Dev nD) : (dat0 V c).arrAt 2 cfg0.N
    = GraphNet.dense (V c (Pipeline.arrRef spec0 0)) (V c (Pipeline.arrRef spec0 1)) :=
  (dat0 V c).arrAt_eq_of_cover 2 _ (fun t _ => flushed_eq V c t) cover

end Region0

end Cert.KernelIdeal.Net

end
-- ==== Proof.Region1.lean ====
/-
  Region 1: the bias added along the rows, then the maximum with zero, 5000 rows at a time.

  Grid point t stages rows 5000·t … 5000·t + 4999 of the feature array and the whole bias vector, adds the bias
  entry v[b] to every entry of column b, takes the maximum with zero and writes the block back in place of rows
  5000·t … 5000·t + 4999 of the output. The 20 blocks tile the output array, so the array ends holding that function
  of the arrays the region found.
-/
import proofs.«108665_j1778116460904_1_alg».proof.Proof.Gen.KernelIdeal.Frame
import proofs.«108665_j1778116460904_1_alg».proof.Proof.GraphNet
import Idealize.ShloMosaic.Lib.Pipeline.Value
import Idealize.ShloMosaic.Lib.ValueLayout

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

namespace Region1

variable (V : (c : Dev nD) → (b : Ref sig .tc) → Buf (Elt Ideal) ((c : Thread nD τ).loc b))

theorem off_zero2 : (![0, 0] : Fin 2 → Nat) = fun _ => 0 := funext fun a => by fin_cases a <;> rfl
theorem off_zero1 : (![0] : Fin 1 → Nat) = fun _ => 0 := funext fun a => by fin_cases a; rfl

/-- The body's result at an entry of the block. -/
theorem pay_entry (x0 : Vec Ideal S5000x128 .f32) (x1 : Vec Ideal S128 .f32) (a : Fin 5000) (b : Fin 128) :
    k1_pay1 x0 x1 (ix2 a b) = max (x0 (ix2 a b) + x1 (ix1 b)) (Ideal.ofBits .f32 0x00000000#32) := by
  unfold k1_pay1
  simp only [shapeCast_self]
  refine congrArg₂ max ?_ rfl
  refine congrArg₂ (· + ·) rfl ?_
  rw [broadcastTo_1b_ab_apply, shapeCast_a_1a_apply]

/-- The windows' block indices at a grid point, decided over the 20 points. -/
theorem index_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

theorem point_lt (t : Fin cfg1.N) : t.val < 20 := t.isLt

/-- Where the feature window's block sits in its array. -/
theorem emb_in (t : Fin cfg1.N) (a : Fin 5000) (b : Fin 128) (h : t.val * 5000 + a.val < 100000) :
    ((cfg1.win 0).blk t).view.emb (ix2 a b) = ix2 (⟨t.val * 5000 + a.val, h⟩ : Fin 100000) b := by
  obtain ⟨e0, e1, -⟩ := index_facts t
  funext ax; apply Fin.ext
  match ax with
  | ⟨0, _⟩ => show win1_0.index t (0 : Fin 2) * 5000 + 1 * a.val = t.val * 5000 + a.val; rw [e0]; omega
  | ⟨1, _⟩ => show win1_0.index t (1 : Fin 2) * 128 + 1 * b.val = b.val; rw [e1]; omega

/-- The bias window's one block is its whole vector. -/
theorem emb_bias (t : Fin cfg1.N) (b : Fin 128) :
    ((cfg1.win 1).blk t).view.emb (ix1 b) = ix1 b := by
  obtain ⟨-, -, e2, -⟩ := index_facts t
  funext ax; apply Fin.ext
  match ax with
  | ⟨0, _⟩ => show win1_1.index t (0 : Fin 1) * 128 + 1 * b.val = b.val; rw [e2]; omega

/-- Where the output window's block sits in its array. -/
theorem emb_out (t : Fin cfg1.N) (a : Fin 5000) (b : Fin 128) (h : t.val * 5000 + a.val < 100000) :
    ((cfg1.win 2).blk t).view.emb (ix2 a b) = ix2 (⟨t.val * 5000 + a.val, h⟩ : Fin 100000) b := by
  obtain ⟨-, -, -, e4, e5⟩ := index_facts t
  funext ax; apply Fin.ext
  match ax with
  | ⟨0, _⟩ => show win1_2.index t (0 : Fin 2) * 5000 + 1 * a.val = t.val * 5000 + a.val; rw [e4]; omega
  | ⟨1, _⟩ => show win1_2.index t (1 : Fin 2) * 128 + 1 * b.val = b.val; rw [e5]; omega

/-- The whole-array function the region computes. -/
abbrev whole (X : FVec Ideal ⟨2, ![100000, 128]⟩ .f32) (v : FVec Ideal ⟨1, ![128]⟩ .f32) : FVec Ideal ⟨2, ![100000, 128]⟩ .f32 :=
  GraphNet.relu (GraphNet.addBias X v)

/-- What point t writes back is block t of that function of the arrays the region found. -/
theorem flushed_eq (c : Dev nD) (t : Fin cfg1.N) :
    (dat1 V c).flushed 2 t = ((cfg1.win 2).blk t).view.read (Elt Ideal)
      (whole (V c (Pipeline.arrRef spec1 0)) (V c (Pipeline.arrRef spec1 1))) := by
  show (cfg1.win 2).cut (grid1.coords t) ((dat1 V c).after 2 t) = _
  rw [after1_2]
  unfold out1_2
  rw [View.canon_unit_zero off_zero2]
  simp only [View.ld_unit_zero (S := S5000x128) off_zero2, View.ld_unit_zero (S := S128) off_zero1]
  funext j
  obtain ⟨a, b, rfl⟩ : ∃ (a : Fin 5000) (b : Fin 128), j = ix2 a b := ⟨j 0, j 1, eq_ix2 j⟩
  have ht := point_lt t
  have hab : t.val * 5000 + a.val < 100000 := by have := a.isLt; omega
  show k1_pay1 (iblk1 V c 0 t) (iblk1 V c 1 t) (ix2 a b)
    = whole (V c (Pipeline.arrRef spec1 0)) (V c (Pipeline.arrRef spec1 1)) (((cfg1.win 2).blk t).view.emb (ix2 a b))
  refine (pay_entry (iblk1 V c 0 t) (iblk1 V c 1 t) a b).trans ?_
  rw [emb_out t a b hab]
  refine congrArg₂ max (congrArg₂ (· + ·) ?_ ?_) rfl
  · show V c (Pipeline.arrRef spec1 0) (((cfg1.win 0).blk t).view.emb (ix2 a b)) = _
    rw [emb_in t a b hab]
  · show V c (Pipeline.arrRef spec1 1) (((cfg1.win 1).blk t).view.emb (ix1 b)) = _
    rw [emb_bias t b]

/-- An index of the output array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- Row r of the output lies in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hq : (i 0).val / 5000 < 20 := by omega
  refine ⟨⟨(i 0).val / 5000, hq⟩, flush1_2 _, ?_⟩
  obtain ⟨-, -, -, e4, e5⟩ := index_facts ⟨(i 0).val / 5000, hq⟩
  rw [mem_blk]
  intro a
  match a with
  | ⟨0, _⟩ => show win1_2.index ⟨(i 0).val / 5000, hq⟩ (0 : Fin 2) * 5000 ≤ (i 0).val ∧ (i 0).val < win1_2.index ⟨(i 0).val / 5000, hq⟩ (0 : Fin 2) * 5000 + 5000; rw [e4]; show (i 0).val / 5000 * 5000 ≤ (i 0).val ∧ (i 0).val < (i 0).val / 5000 * 5000 + 5000; omega
  | ⟨1, _⟩ => show win1_2.index ⟨(i 0).val / 5000, hq⟩ (1 : Fin 2) * 128 ≤ (i 1).val ∧ (i 1).val < win1_2.index ⟨(i 0).val / 5000, hq⟩ (1 : Fin 2) * 128 + 128; rw [e5]; omega

/-- The output array after the region. -/
theorem final (c : Dev nD) : (dat1 V c).arrAt 2 cfg1.N
    = whole (V c (Pipeline.arrRef spec1 0)) (V c (Pipeline.arrRef spec1 1)) :=
  (dat1 V c).arrAt_eq_of_cover 2 _ (fun t _ => flushed_eq V c t) cover

end Region1

end Cert.KernelIdeal.Net

end
-- ==== Proof.Region2.lean ====
/-
  Region 2: a product of the feature array with a weight matrix, 5000 rows at a time.

  Grid point t stages rows 5000·t … 5000·t + 4999 of the left array and the whole 128 × 128 right matrix, multiplies
  them into a zero accumulator and writes the 5000 × 128 product back as rows 5000·t … 5000·t + 4999 of the output. Entry
  (a, b) of that block is the sum over k of left[5000·t + a, k] · right[k, b], which is entry (5000·t + a, b) of the
  whole product; the 20 blocks tile the output array, so the array ends holding the whole product of the arrays the
  region found.
-/
import proofs.«108665_j1778116460904_1_alg».proof.Proof.Gen.KernelIdeal.Frame
import proofs.«108665_j1778116460904_1_alg».proof.Proof.GraphNet
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

namespace Region2

variable (V : (c : Dev nD) → (b : Ref sig .tc) → Buf (Elt Ideal) ((c : Thread nD τ).loc b))

theorem off_zero : (![0, 0] : Fin 2 → Nat) = fun _ => 0 := funext fun a => by fin_cases a <;> rfl

/-- The body's result at an entry of the block: the row of the staged rows against the column of the matrix. -/
theorem pay_entry (x0 : Vec Ideal S5000x128 .f32) (x1 : Vec Ideal S128x128 .f32) (a : Fin 5000) (b : Fin 128) :
    k2_pay1 x0 x1 (ix2 a b) = ∑ k : Fin 128, x0 (ix2 a k) * x1 (ix2 k b) := by
  unfold k2_pay1
  simp only [shapeCast_self]
  exact PlainMatmul.matmul_zero_apply none _ _ a b

/-- The windows' block indices at a grid point, decided over the 20 points. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 20 := t.isLt

/-- Where the left window's block sits in its array. -/
theorem emb_left (t : Fin cfg2.N) (a : Fin 5000) (k : Fin 128) (h : t.val * 5000 + a.val < 100000) :
    ((cfg2.win 0).blk t).view.emb (ix2 a k) = ix2 (⟨t.val * 5000 + a.val, h⟩ : Fin 100000) k := by
  obtain ⟨e0, e1, -⟩ := index_facts t
  funext ax; apply Fin.ext
  match ax with
  | ⟨0, _⟩ => show win2_0.index t (0 : Fin 2) * 5000 + 1 * a.val = t.val * 5000 + a.val; rw [e0]; omega
  | ⟨1, _⟩ => show win2_0.index t (1 : Fin 2) * 128 + 1 * k.val = k.val; rw [e1]; omega

/-- The right window's one block is its whole array. -/
theorem emb_right (t : Fin cfg2.N) (k : Fin 128) (b : Fin 128) :
    ((cfg2.win 1).blk t).view.emb (ix2 k b) = ix2 k b := by
  obtain ⟨-, -, e2, e3, -⟩ := index_facts t
  funext ax; apply Fin.ext
  match ax with
  | ⟨0, _⟩ => show win2_1.index t (0 : Fin 2) * 128 + 1 * k.val = k.val; rw [e2]; omega
  | ⟨1, _⟩ => show win2_1.index t (1 : Fin 2) * 128 + 1 * b.val = b.val; rw [e3]; omega

/-- Where the output window's block sits in its array. -/
theorem emb_out (t : Fin cfg2.N) (a : Fin 5000) (b : Fin 128) (h : t.val * 5000 + a.val < 100000) :
    ((cfg2.win 2).blk t).view.emb (ix2 a b) = ix2 (⟨t.val * 5000 + a.val, h⟩ : Fin 100000) b := by
  obtain ⟨-, -, -, -, e4, e5⟩ := index_facts t
  funext ax; apply Fin.ext
  match ax with
  | ⟨0, _⟩ => show win2_2.index t (0 : Fin 2) * 5000 + 1 * a.val = t.val * 5000 + a.val; rw [e4]; omega
  | ⟨1, _⟩ => show win2_2.index t (1 : Fin 2) * 128 + 1 * b.val = b.val; rw [e5]; omega

/-- What point t writes back is block t of the whole product. -/
theorem flushed_eq (c : Dev nD) (t : Fin cfg2.N) :
    (dat2 V c).flushed 2 t = ((cfg2.win 2).blk t).view.read (Elt Ideal)
      (GraphNet.dense (V c (Pipeline.arrRef spec2 0)) (V c (Pipeline.arrRef spec2 1))) := by
  show (cfg2.win 2).cut (grid2.coords t) ((dat2 V c).after 2 t) = _
  rw [after2_2]
  unfold out2_2
  rw [View.canon_unit_zero off_zero]
  simp only [View.ld_unit_zero (S := S5000x128) off_zero, View.ld_unit_zero (S := S128x128) off_zero]
  funext j
  obtain ⟨a, b, rfl⟩ : ∃ (a : Fin 5000) (b : Fin 128), j = ix2 a b := ⟨j 0, j 1, eq_ix2 j⟩
  have ht := point_lt t
  have hab : t.val * 5000 + a.val < 100000 := by have := a.isLt; omega
  show k2_pay1 (iblk2 V c 0 t) (iblk2 V c 1 t) (ix2 a b)
    = GraphNet.dense (V c (Pipeline.arrRef spec2 0)) (V c (Pipeline.arrRef spec2 1)) (((cfg2.win 2).blk t).view.emb (ix2 a b))
  refine (pay_entry (iblk2 V c 0 t) (iblk2 V c 1 t) a b).trans ?_
  rw [emb_out t a b hab, GraphNet.dense_entry]
  refine Finset.sum_congr rfl fun k _ => ?_
  refine congrArg₂ (· * ·) ?_ ?_
  · show V c (Pipeline.arrRef spec2 0) (((cfg2.win 0).blk t).view.emb (ix2 a k)) = _
    rw [emb_left t a k hab]
  · show V c (Pipeline.arrRef spec2 1) (((cfg2.win 1).blk t).view.emb (ix2 k b)) = _
    rw [emb_right t k b]

/-- An index of the output array is in point t's block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole (Pipeline.arrRef spec2 2)).slice (win2_2.rect t)).set ↔ _
  rw [View.set_slice_whole, Rect.mem_set_unit]
  exact Iff.rfl

/-- Row r of the output lies in the block of point r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hq : (i 0).val / 5000 < 20 := by omega
  refine ⟨⟨(i 0).val / 5000, hq⟩, flush2_2 _, ?_⟩
  obtain ⟨-, -, -, -, e4, e5⟩ := index_facts ⟨(i 0).val / 5000, hq⟩
  rw [mem_blk]
  intro a
  match a with
  | ⟨0, _⟩ => show win2_2.index ⟨(i 0).val / 5000, hq⟩ (0 : Fin 2) * 5000 ≤ (i 0).val ∧ (i 0).val < win2_2.index ⟨(i 0).val / 5000, hq⟩ (0 : Fin 2) * 5000 + 5000; rw [e4]; show (i 0).val / 5000 * 5000 ≤ (i 0).val ∧ (i 0).val < (i 0).val / 5000 * 5000 + 5000; omega
  | ⟨1, _⟩ => show win2_2.index ⟨(i 0).val / 5000, hq⟩ (1 : Fin 2) * 128 ≤ (i 1).val ∧ (i 1).val < win2_2.index ⟨(i 0).val / 5000, hq⟩ (1 : Fin 2) * 128 + 128; rw [e5]; omega

/-- The output array after the region: the whole product of the arrays the region found. -/
theorem final (c : Dev nD) : (dat2 V c).arrAt 2 cfg2.N
    = GraphNet.dense (V c (Pipeline.arrRef spec2 0)) (V c (Pipeline.arrRef spec2 1)) :=
  (dat2 V c).arrAt_eq_of_cover 2 _ (fun t _ => flushed_eq V c t) cover

end Region2

end Cert.KernelIdeal.Net

end
-- ==== Proof.Region3.lean ====
/-
  Region 3: the bias added along the rows, 5000 rows at a time.

  Grid point t stages rows 5000·t … 5000·t + 4999 of the feature array and the whole bias vector, adds the bias
  entry v[b] to every entry of column b and writes the block back in place of rows
  5000·t … 5000·t + 4999 of the output. The 20 blocks tile the output array, so the array ends holding that function
  of the arrays the region found.
-/
import proofs.«108665_j1778116460904_1_alg».proof.Proof.Gen.KernelIdeal.Frame
import proofs.«108665_j1778116460904_1_alg».proof.Proof.GraphNet
import Idealize.ShloMosaic.Lib.Pipeline.Value
import Idealize.ShloMosaic.Lib.ValueLayout

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

namespace Region3

variable (V : (c : Dev nD) → (b : Ref sig .tc) → Buf (Elt Ideal) ((c : Thread nD τ).loc b))

theorem off_zero2 : (![0, 0] : Fin 2 → Nat) = fun _ => 0 := funext fun a => by fin_cases a <;> rfl
theorem off_zero1 : (![0] : Fin 1 → Nat) = fun _ => 0 := funext fun a => by fin_cases a; rfl

/-- The body's result at an entry of the block. -/
theorem pay_entry (x0 : Vec Ideal S5000x128 .f32) (x1 : Vec Ideal S128 .f32) (a : Fin 5000) (b : Fin 128) :
    k3_pay1 x0 x1 (ix2 a b) = x0 (ix2 a b) + x1 (ix1 b) := by
  unfold k3_pay1
  simp only [shapeCast_self]
  refine congrArg₂ (· + ·) rfl ?_
  rw [broadcastTo_1b_ab_apply, shapeCast_a_1a_apply]

/-- The windows' block indices at a grid point, decided over the 20 points. -/
theorem index_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

theorem point_lt (t : Fin cfg3.N) : t.val < 20 := t.isLt

/-- Where the feature window's block sits in its array. -/
theorem emb_in (t : Fin cfg3.N) (a : Fin 5000) (b : Fin 128) (h : t.val * 5000 + a.val < 100000) :
    ((cfg3.win 0).blk t).view.emb (ix2 a b) = ix2 (⟨t.val * 5000 + a.val, h⟩ : Fin 100000) b := by
  obtain ⟨e0, e1, -⟩ := index_facts t
  funext ax; apply Fin.ext
  match ax with
  | ⟨0, _⟩ => show win3_0.index t (0 : Fin 2) * 5000 + 1 * a.val = t.val * 5000 + a.val; rw [e0]; omega
  | ⟨1, _⟩ => show win3_0.index t (1 : Fin 2) * 128 + 1 * b.val = b.val; rw [e1]; omega

/-- The bias window's one block is its whole vector. -/
theorem emb_bias (t : Fin cfg3.N) (b : Fin 128) :
    ((cfg3.win 1).blk t).view.emb (ix1 b) = ix1 b := by
  obtain ⟨-, -, e2, -⟩ := index_facts t
  funext ax; apply Fin.ext
  match ax with
  | ⟨0, _⟩ => show win3_1.index t (0 : Fin 1) * 128 + 1 * b.val = b.val; rw [e2]; omega

/-- Where the output window's block sits in its array. -/
theorem emb_out (t : Fin cfg3.N) (a : Fin 5000) (b : Fin 128) (h : t.val * 5000 + a.val < 100000) :
    ((cfg3.win 2).blk t).view.emb (ix2 a b) = ix2 (⟨t.val * 5000 + a.val, h⟩ : Fin 100000) b := by
  obtain ⟨-, -, -, e4, e5⟩ := index_facts t
  funext ax; apply Fin.ext
  match ax with
  | ⟨0, _⟩ => show win3_2.index t (0 : Fin 2) * 5000 + 1 * a.val = t.val * 5000 + a.val; rw [e4]; omega
  | ⟨1, _⟩ => show win3_2.index t (1 : Fin 2) * 128 + 1 * b.val = b.val; rw [e5]; omega

/-- The whole-array function the region computes. -/
abbrev whole (X : FVec Ideal ⟨2, ![100000, 128]⟩ .f32) (v : FVec Ideal ⟨1, ![128]⟩ .f32) : FVec Ideal ⟨2, ![100000, 128]⟩ .f32 :=
  GraphNet.addBias X v

/-- What point t writes back is block t of that function of the arrays the region found. -/
theorem flushed_eq (c : Dev nD) (t : Fin cfg3.N) :
    (dat3 V c).flushed 2 t = ((cfg3.win 2).blk t).view.read (Elt Ideal)
      (whole (V c (Pipeline.arrRef spec3 0)) (V c (Pipeline.arrRef spec3 1))) := by
  show (cfg3.win 2).cut (grid3.coords t) ((dat3 V c).after 2 t) = _
  rw [after3_2]
  unfold out3_2
  rw [View.canon_unit_zero off_zero2]
  simp only [View.ld_unit_zero (S := S5000x128) off_zero2, View.ld_unit_zero (S := S128) off_zero1]
  funext j
  obtain ⟨a, b, rfl⟩ : ∃ (a : Fin 5000) (b : Fin 128), j = ix2 a b := ⟨j 0, j 1, eq_ix2 j⟩
  have ht := point_lt t
  have hab : t.val * 5000 + a.val < 100000 := by have := a.isLt; omega
  show k3_pay1 (iblk3 V c 0 t) (iblk3 V c 1 t) (ix2 a b)
    = whole (V c (Pipeline.arrRef spec3 0)) (V c (Pipeline.arrRef spec3 1)) (((cfg3.win 2).blk t).view.emb (ix2 a b))
  refine (pay_entry (iblk3 V c 0 t) (iblk3 V c 1 t) a b).trans ?_
  rw [emb_out t a b hab]
  refine congrArg₂ (· + ·) ?_ ?_
  · show V c (Pipeline.arrRef spec3 0) (((cfg3.win 0).blk t).view.emb (ix2 a b)) = _
    rw [emb_in t a b hab]
  · show V c (Pipeline.arrRef spec3 1) (((cfg3.win 1).blk t).view.emb (ix1 b)) = _
    rw [emb_bias t b]

/-- An index of the output array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole (Pipeline.arrRef spec3 2)).slice (win3_2.rect t)).set ↔ _
  rw [View.set_slice_whole, Rect.mem_set_unit]
  exact Iff.rfl

/-- Row r of the output lies in the block of point r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hq : (i 0).val / 5000 < 20 := by omega
  refine ⟨⟨(i 0).val / 5000, hq⟩, flush3_2 _, ?_⟩
  obtain ⟨-, -, -, e4, e5⟩ := index_facts ⟨(i 0).val / 5000, hq⟩
  rw [mem_blk]
  intro a
  match a with
  | ⟨0, _⟩ => show win3_2.index ⟨(i 0).val / 5000, hq⟩ (0 : Fin 2) * 5000 ≤ (i 0).val ∧ (i 0).val < win3_2.index ⟨(i 0).val / 5000, hq⟩ (0 : Fin 2) * 5000 + 5000; rw [e4]; show (i 0).val / 5000 * 5000 ≤ (i 0).val ∧ (i 0).val < (i 0).val / 5000 * 5000 + 5000; omega
  | ⟨1, _⟩ => show win3_2.index ⟨(i 0).val / 5000, hq⟩ (1 : Fin 2) * 128 ≤ (i 1).val ∧ (i 1).val < win3_2.index ⟨(i 0).val / 5000, hq⟩ (1 : Fin 2) * 128 + 128; rw [e5]; omega

/-- The output array after the region. -/
theorem final (c : Dev nD) : (dat3 V c).arrAt 2 cfg3.N
    = whole (V c (Pipeline.arrRef spec3 0)) (V c (Pipeline.arrRef spec3 1)) :=
  (dat3 V c).arrAt_eq_of_cover 2 _ (fun t _ => flushed_eq V c t) cover

end Region3

end Cert.KernelIdeal.Net

end
-- ==== Proof.Region4.lean ====
/-
  Region 4: a product of the feature array with a weight matrix, 5000 rows at a time.

  Grid point t stages rows 5000·t … 5000·t + 4999 of the left array and the whole 128 × 128 right matrix, multiplies
  them into a zero accumulator and writes the 5000 × 128 product back as rows 5000·t … 5000·t + 4999 of the output. Entry
  (a, b) of that block is the sum over k of left[5000·t + a, k] · right[k, b], which is entry (5000·t + a, b) of the
  whole product; the 20 blocks tile the output array, so the array ends holding the whole product of the arrays the
  region found.
-/
import proofs.«108665_j1778116460904_1_alg».proof.Proof.Gen.KernelIdeal.Frame
import proofs.«108665_j1778116460904_1_alg».proof.Proof.GraphNet
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

namespace Region4

variable (V : (c : Dev nD) → (b : Ref sig .tc) → Buf (Elt Ideal) ((c : Thread nD τ).loc b))

theorem off_zero : (![0, 0] : Fin 2 → Nat) = fun _ => 0 := funext fun a => by fin_cases a <;> rfl

/-- The body's result at an entry of the block: the row of the staged rows against the column of the matrix. -/
theorem pay_entry (x0 : Vec Ideal S5000x128 .f32) (x1 : Vec Ideal S128x128 .f32) (a : Fin 5000) (b : Fin 128) :
    k4_pay1 x0 x1 (ix2 a b) = ∑ k : Fin 128, x0 (ix2 a k) * x1 (ix2 k b) := by
  unfold k4_pay1
  simp only [shapeCast_self]
  exact PlainMatmul.matmul_zero_apply none _ _ a b

/-- The windows' block indices at a grid point, decided over the 20 points. -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 20 := t.isLt

/-- Where the left window's block sits in its array. -/
theorem emb_left (t : Fin cfg4.N) (a : Fin 5000) (k : Fin 128) (h : t.val * 5000 + a.val < 100000) :
    ((cfg4.win 0).blk t).view.emb (ix2 a k) = ix2 (⟨t.val * 5000 + a.val, h⟩ : Fin 100000) k := by
  obtain ⟨e0, e1, -⟩ := index_facts t
  funext ax; apply Fin.ext
  match ax with
  | ⟨0, _⟩ => show win4_0.index t (0 : Fin 2) * 5000 + 1 * a.val = t.val * 5000 + a.val; rw [e0]; omega
  | ⟨1, _⟩ => show win4_0.index t (1 : Fin 2) * 128 + 1 * k.val = k.val; rw [e1]; omega

/-- The right window's one block is its whole array. -/
theorem emb_right (t : Fin cfg4.N) (k : Fin 128) (b : Fin 128) :
    ((cfg4.win 1).blk t).view.emb (ix2 k b) = ix2 k b := by
  obtain ⟨-, -, e2, e3, -⟩ := index_facts t
  funext ax; apply Fin.ext
  match ax with
  | ⟨0, _⟩ => show win4_1.index t (0 : Fin 2) * 128 + 1 * k.val = k.val; rw [e2]; omega
  | ⟨1, _⟩ => show win4_1.index t (1 : Fin 2) * 128 + 1 * b.val = b.val; rw [e3]; omega

/-- Where the output window's block sits in its array. -/
theorem emb_out (t : Fin cfg4.N) (a : Fin 5000) (b : Fin 128) (h : t.val * 5000 + a.val < 100000) :
    ((cfg4.win 2).blk t).view.emb (ix2 a b) = ix2 (⟨t.val * 5000 + a.val, h⟩ : Fin 100000) b := by
  obtain ⟨-, -, -, -, e4, e5⟩ := index_facts t
  funext ax; apply Fin.ext
  match ax with
  | ⟨0, _⟩ => show win4_2.index t (0 : Fin 2) * 5000 + 1 * a.val = t.val * 5000 + a.val; rw [e4]; omega
  | ⟨1, _⟩ => show win4_2.index t (1 : Fin 2) * 128 + 1 * b.val = b.val; rw [e5]; omega

/-- What point t writes back is block t of the whole product. -/
theorem flushed_eq (c : Dev nD) (t : Fin cfg4.N) :
    (dat4 V c).flushed 2 t = ((cfg4.win 2).blk t).view.read (Elt Ideal)
      (GraphNet.dense (V c (Pipeline.arrRef spec4 0)) (V c (Pipeline.arrRef spec4 1))) := by
  show (cfg4.win 2).cut (grid4.coords t) ((dat4 V c).after 2 t) = _
  rw [after4_2]
  unfold out4_2
  rw [View.canon_unit_zero off_zero]
  simp only [View.ld_unit_zero (S := S5000x128) off_zero, View.ld_unit_zero (S := S128x128) off_zero]
  funext j
  obtain ⟨a, b, rfl⟩ : ∃ (a : Fin 5000) (b : Fin 128), j = ix2 a b := ⟨j 0, j 1, eq_ix2 j⟩
  have ht := point_lt t
  have hab : t.val * 5000 + a.val < 100000 := by have := a.isLt; omega
  show k4_pay1 (iblk4 V c 0 t) (iblk4 V c 1 t) (ix2 a b)
    = GraphNet.dense (V c (Pipeline.arrRef spec4 0)) (V c (Pipeline.arrRef spec4 1)) (((cfg4.win 2).blk t).view.emb (ix2 a b))
  refine (pay_entry (iblk4 V c 0 t) (iblk4 V c 1 t) a b).trans ?_
  rw [emb_out t a b hab, GraphNet.dense_entry]
  refine Finset.sum_congr rfl fun k _ => ?_
  refine congrArg₂ (· * ·) ?_ ?_
  · show V c (Pipeline.arrRef spec4 0) (((cfg4.win 0).blk t).view.emb (ix2 a k)) = _
    rw [emb_left t a k hab]
  · show V c (Pipeline.arrRef spec4 1) (((cfg4.win 1).blk t).view.emb (ix2 k b)) = _
    rw [emb_right t k b]

/-- An index of the output array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole (Pipeline.arrRef spec4 2)).slice (win4_2.rect t)).set ↔ _
  rw [View.set_slice_whole, Rect.mem_set_unit]
  exact Iff.rfl

/-- Row r of the output lies in the block of point r / 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hq : (i 0).val / 5000 < 20 := by omega
  refine ⟨⟨(i 0).val / 5000, hq⟩, flush4_2 _, ?_⟩
  obtain ⟨-, -, -, -, e4, e5⟩ := index_facts ⟨(i 0).val / 5000, hq⟩
  rw [mem_blk]
  intro a
  match a with
  | ⟨0, _⟩ => show win4_2.index ⟨(i 0).val / 5000, hq⟩ (0 : Fin 2) * 5000 ≤ (i 0).val ∧ (i 0).val < win4_2.index ⟨(i 0).val / 5000, hq⟩ (0 : Fin 2) * 5000 + 5000; rw [e4]; show (i 0).val / 5000 * 5000 ≤ (i 0).val ∧ (i 0).val < (i 0).val / 5000 * 5000 + 5000; omega
  | ⟨1, _⟩ => show win4_2.index ⟨(i 0).val / 5000, hq⟩ (1 : Fin 2) * 128 ≤ (i 1).val ∧ (i 1).val < win4_2.index ⟨(i 0).val / 5000, hq⟩ (1 : Fin 2) * 128 + 128; rw [e5]; omega

/-- The output array after the region: the whole product of the arrays the region found. -/
theorem final (c : Dev nD) : (dat4 V c).arrAt 2 cfg4.N
    = GraphNet.dense (V c (Pipeline.arrRef spec4 0)) (V c (Pipeline.arrRef spec4 1)) :=
  (dat4 V c).arrAt_eq_of_cover 2 _ (fun t _ => flushed_eq V c t) cover

end Region4

end Cert.KernelIdeal.Net

end
-- ==== Proof.Region5.lean ====
/-
  Region 5: the bias added along the rows, 5000 rows at a time.

  Grid point t stages rows 5000·t … 5000·t + 4999 of the feature array and the whole bias vector, adds the bias
  entry v[b] to every entry of column b and writes the block back in place of rows
  5000·t … 5000·t + 4999 of the output. The 20 blocks tile the output array, so the array ends holding that function
  of the arrays the region found.
-/
import proofs.«108665_j1778116460904_1_alg».proof.Proof.Gen.KernelIdeal.Frame
import proofs.«108665_j1778116460904_1_alg».proof.Proof.GraphNet
import Idealize.ShloMosaic.Lib.Pipeline.Value
import Idealize.ShloMosaic.Lib.ValueLayout

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

namespace Region5

variable (V : (c : Dev nD) → (b : Ref sig .tc) → Buf (Elt Ideal) ((c : Thread nD τ).loc b))

theorem off_zero2 : (![0, 0] : Fin 2 → Nat) = fun _ => 0 := funext fun a => by fin_cases a <;> rfl
theorem off_zero1 : (![0] : Fin 1 → Nat) = fun _ => 0 := funext fun a => by fin_cases a; rfl

/-- The body's result at an entry of the block. -/
theorem pay_entry (x0 : Vec Ideal S5000x128 .f32) (x1 : Vec Ideal S128 .f32) (a : Fin 5000) (b : Fin 128) :
    k5_pay1 x0 x1 (ix2 a b) = x0 (ix2 a b) + x1 (ix1 b) := by
  unfold k5_pay1
  simp only [shapeCast_self]
  refine congrArg₂ (· + ·) rfl ?_
  rw [broadcastTo_1b_ab_apply, shapeCast_a_1a_apply]

/-- The windows' block indices at a grid point, decided over the 20 points. -/
theorem index_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

theorem point_lt (t : Fin cfg5.N) : t.val < 20 := t.isLt

/-- Where the feature window's block sits in its array. -/
theorem emb_in (t : Fin cfg5.N) (a : Fin 5000) (b : Fin 128) (h : t.val * 5000 + a.val < 100000) :
    ((cfg5.win 0).blk t).view.emb (ix2 a b) = ix2 (⟨t.val * 5000 + a.val, h⟩ : Fin 100000) b := by
  obtain ⟨e0, e1, -⟩ := index_facts t
  funext ax; apply Fin.ext
  match ax with
  | ⟨0, _⟩ => show win5_0.index t (0 : Fin 2) * 5000 + 1 * a.val = t.val * 5000 + a.val; rw [e0]; omega
  | ⟨1, _⟩ => show win5_0.index t (1 : Fin 2) * 128 + 1 * b.val = b.val; rw [e1]; omega

/-- The bias window's one block is its whole vector. -/
theorem emb_bias (t : Fin cfg5.N) (b : Fin 128) :
    ((cfg5.win 1).blk t).view.emb (ix1 b) = ix1 b := by
  obtain ⟨-, -, e2, -⟩ := index_facts t
  funext ax; apply Fin.ext
  match ax with
  | ⟨0, _⟩ => show win5_1.index t (0 : Fin 1) * 128 + 1 * b.val = b.val; rw [e2]; omega

/-- Where the output window's block sits in its array. -/
theorem emb_out (t : Fin cfg5.N) (a : Fin 5000) (b : Fin 128) (h : t.val * 5000 + a.val < 100000) :
    ((cfg5.win 2).blk t).view.emb (ix2 a b) = ix2 (⟨t.val * 5000 + a.val, h⟩ : Fin 100000) b := by
  obtain ⟨-, -, -, e4, e5⟩ := index_facts t
  funext ax; apply Fin.ext
  match ax with
  | ⟨0, _⟩ => show win5_2.index t (0 : Fin 2) * 5000 + 1 * a.val = t.val * 5000 + a.val; rw [e4]; omega
  | ⟨1, _⟩ => show win5_2.index t (1 : Fin 2) * 128 + 1 * b.val = b.val; rw [e5]; omega

/-- The whole-array function the region computes. -/
abbrev whole (X : FVec Ideal ⟨2, ![100000, 128]⟩ .f32) (v : FVec Ideal ⟨1, ![128]⟩ .f32) : FVec Ideal ⟨2, ![100000, 128]⟩ .f32 :=
  GraphNet.addBias X v

/-- What point t writes back is block t of that function of the arrays the region found. -/
theorem flushed_eq (c : Dev nD) (t : Fin cfg5.N) :
    (dat5 V c).flushed 2 t = ((cfg5.win 2).blk t).view.read (Elt Ideal)
      (whole (V c (Pipeline.arrRef spec5 0)) (V c (Pipeline.arrRef spec5 1))) := by
  show (cfg5.win 2).cut (grid5.coords t) ((dat5 V c).after 2 t) = _
  rw [after5_2]
  unfold out5_2
  rw [View.canon_unit_zero off_zero2]
  simp only [View.ld_unit_zero (S := S5000x128) off_zero2, View.ld_unit_zero (S := S128) off_zero1]
  funext j
  obtain ⟨a, b, rfl⟩ : ∃ (a : Fin 5000) (b : Fin 128), j = ix2 a b := ⟨j 0, j 1, eq_ix2 j⟩
  have ht := point_lt t
  have hab : t.val * 5000 + a.val < 100000 := by have := a.isLt; omega
  show k5_pay1 (iblk5 V c 0 t) (iblk5 V c 1 t) (ix2 a b)
    = whole (V c (Pipeline.arrRef spec5 0)) (V c (Pipeline.arrRef spec5 1)) (((cfg5.win 2).blk t).view.emb (ix2 a b))
  refine (pay_entry (iblk5 V c 0 t) (iblk5 V c 1 t) a b).trans ?_
  rw [emb_out t a b hab]
  refine congrArg₂ (· + ·) ?_ ?_
  · show V c (Pipeline.arrRef spec5 0) (((cfg5.win 0).blk t).view.emb (ix2 a b)) = _
    rw [emb_in t a b hab]
  · show V c (Pipeline.arrRef spec5 1) (((cfg5.win 1).blk t).view.emb (ix1 b)) = _
    rw [emb_bias t b]

/-- An index of the output array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole (Pipeline.arrRef spec5 2)).slice (win5_2.rect t)).set ↔ _
  rw [View.set_slice_whole, Rect.mem_set_unit]
  exact Iff.rfl

/-- Row r of the output lies in the block of point r / 5000. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hq : (i 0).val / 5000 < 20 := by omega
  refine ⟨⟨(i 0).val / 5000, hq⟩, flush5_2 _, ?_⟩
  obtain ⟨-, -, -, e4, e5⟩ := index_facts ⟨(i 0).val / 5000, hq⟩
  rw [mem_blk]
  intro a
  match a with
  | ⟨0, _⟩ => show win5_2.index ⟨(i 0).val / 5000, hq⟩ (0 : Fin 2) * 5000 ≤ (i 0).val ∧ (i 0).val < win5_2.index ⟨(i 0).val / 5000, hq⟩ (0 : Fin 2) * 5000 + 5000; rw [e4]; show (i 0).val / 5000 * 5000 ≤ (i 0).val ∧ (i 0).val < (i 0).val / 5000 * 5000 + 5000; omega
  | ⟨1, _⟩ => show win5_2.index ⟨(i 0).val / 5000, hq⟩ (1 : Fin 2) * 128 ≤ (i 1).val ∧ (i 1).val < win5_2.index ⟨(i 0).val / 5000, hq⟩ (1 : Fin 2) * 128 + 128; rw [e5]; omega

/-- The output array after the region. -/
theorem final (c : Dev nD) : (dat5 V c).arrAt 2 cfg5.N
    = whole (V c (Pipeline.arrRef spec5 0)) (V c (Pipeline.arrRef spec5 1)) :=
  (dat5 V c).arrAt_eq_of_cover 2 _ (fun t _ => flushed_eq V c t) cover

end Region5

end Cert.KernelIdeal.Net

end
-- ==== Proof.KernelValue.lean ====
/-
  The contents of the kernel program's buffers at each boundary between its host stretches and its regions.

  Following the program from the launch: the host prepares the edge columns and the edge scales; region 0 multiplies
  the node features by the first weight matrix; the host aggregates over the graph; region 1 adds the first bias and
  takes the maximum with zero; the host prepares the same columns and scales again; region 2 multiplies by the second
  weight matrix; the host aggregates; region 3 adds the second bias; region 4 multiplies by the last weight matrix;
  region 5 adds the last bias. A host stretch is read off operation by operation; a region's output array is the whole
  product (or the whole bias sum) of the arrays it found; every buffer that a stretch or a region does not write is
  carried along unchanged. The result is the network below of the launch contents of the arguments.
-/
import proofs.«108665_j1778116460904_1_alg».proof.Proof.Gen.KernelIdeal.Frame
import proofs.«108665_j1778116460904_1_alg».proof.Proof.AggKernel
import proofs.«108665_j1778116460904_1_alg».proof.Proof.Region0
import proofs.«108665_j1778116460904_1_alg».proof.Proof.Region1
import proofs.«108665_j1778116460904_1_alg».proof.Proof.Region2
import proofs.«108665_j1778116460904_1_alg».proof.Proof.Region3
import proofs.«108665_j1778116460904_1_alg».proof.Proof.Region4
import proofs.«108665_j1778116460904_1_alg».proof.Proof.Region5
import Idealize.ShloMosaic.Lib.StableHlo.Run
import Idealize.ShloMosaic.PureOps.Ideal

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo

/-- The network: two rounds of (product with a weight matrix, aggregation over the graph, bias), the first followed by
    the maximum with zero, then a last product and bias. -/
def net (x : (⟨S100000x128, .f32⟩ : BufTy).Contents (Elt Ideal)) (e : (⟨S2x600000, .i32⟩ : BufTy).Contents (Elt Ideal))
    (w : (⟨S600000, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal)) :
    (⟨S100000x128, .f32⟩ : BufTy).Contents (Elt Ideal) :=
  GraphNet.addBias (GraphNet.dense (GraphNet.addBias (Agg.agg e w (GraphNet.dense (GraphNet.relu
    (GraphNet.addBias (Agg.agg e w (GraphNet.dense x W1)) b1)) W2)) b2) W3) b3

variable (m : (ℓ : Loc nD τ sig) → Buf (Elt Ideal) ℓ) (ρ : Dev nD → PrngReg) (c : Dev nD)

/-! ## Entering region 0: what the first host stretches prepared, and what they left alone -/

theorem keep3_main_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl
theorem keep3_main_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl
theorem keep3_main_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl
theorem keep3_main_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl
theorem keep3_main_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl
theorem keep3_main_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results <;> rfl
theorem keep3_main_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results <;> rfl
theorem keep3_main_arg8 : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results <;> rfl

theorem row0_3 : W3 m ρ c (Proc.devRef .tc main_v1) = Agg.row0 (m ((c : Thread nD τ).loc main_arg1)) := by
  show StableHlo.after hostOps0_2 (StableHlo.after hostOps0_1 (StableHlo.after hostOps0 (W0 m ρ c))) (Proc.devRef .tc main_v1) = _
  after_results <;> rfl
theorem row1_3 : W3 m ρ c (Proc.devRef .tc main_v3) = Agg.row1 (m ((c : Thread nD τ).loc main_arg1)) := by
  show StableHlo.after hostOps0_2 (StableHlo.after hostOps0_1 (StableHlo.after hostOps0 (W0 m ρ c))) (Proc.devRef .tc main_v3) = _
  after_results <;> rfl
theorem src_3 : W3 m ρ c (Proc.devRef .tc main_v5) = Agg.withLoops (Agg.row0 (m ((c : Thread nD τ).loc main_arg1))) := by
  show StableHlo.after hostOps0_2 (StableHlo.after hostOps0_1 (StableHlo.after hostOps0 (W0 m ρ c))) (Proc.devRef .tc main_v5) = _
  after_results <;> rfl
theorem dst_3 : W3 m ρ c (Proc.devRef .tc main_v6) = Agg.withLoops (Agg.row1 (m ((c : Thread nD τ).loc main_arg1))) := by
  show StableHlo.after hostOps0_2 (StableHlo.after hostOps0_1 (StableHlo.after hostOps0 (W0 m ρ c))) (Proc.devRef .tc main_v6) = _
  after_results <;> rfl

/-- Reading a host stretch operation by operation: an operation's result at its own buffer is its function of its
    operands' contents, and every other buffer keeps what it held. -/
local macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- The outlined select (rsqrt where the degree is positive, else 0), read at any contents. -/
theorem where_read1 (V : Valuation τ sig (Elt Ideal)) :
    StableHlo.after hostOps0_1 V (Proc.devRef .tc main_v15)
      = select (V (Proc.devRef .tc main_v13)) (V (Proc.devRef .tc main_v14)) (broadcastInDim S100000 ![] bcast_S_S100000 (id (V (Proc.devRef .tc main_cst_2)))) := by
  after_results <;> rfl

/-- The edge scales from the per-node factor, read at any contents. -/
theorem scale_read1 (V : Valuation τ sig (Elt Ideal)) :
    StableHlo.after hostOps0_2 V (Proc.devRef .tc main_v31)
      = Agg.scaleCore (V (Proc.devRef .tc main_v15)) (V (Proc.devRef .tc main_v5)) (V (Proc.devRef .tc main_v6)) (V (Proc.devRef .tc main_v8)) := by
  after_results_simp
  finish_results
  rfl

theorem cmp_1 : W1 m ρ c (Proc.devRef .tc main_v13) = cmpf .ogt (Agg.deg (Agg.withLoops (Agg.row1 (m ((c : Thread nD τ).loc main_arg1)))) (Agg.weights (m ((c : Thread nD τ).loc main_arg2)))) (broadcastInDim S100000 ![] bcast_S_S100000 (constant S_ .f32 0x00000000#32)) := by
  show StableHlo.after hostOps0 (W0 m ρ c) (Proc.devRef .tc main_v13) = _
  after_results <;> rfl
theorem rsq_1 : W1 m ρ c (Proc.devRef .tc main_v14) = Host.rsqrt (Agg.deg (Agg.withLoops (Agg.row1 (m ((c : Thread nD τ).loc main_arg1)))) (Agg.weights (m ((c : Thread nD τ).loc main_arg2)))) := by
  show StableHlo.after hostOps0 (W0 m ρ c) (Proc.devRef .tc main_v14) = _
  after_results <;> rfl
theorem cst_1 : W1 m ρ c (Proc.devRef .tc main_cst_2) = constant (F := Ideal) S_ .f32 0x00000000#32 := by
  show StableHlo.after hostOps0 (W0 m ρ c) (Proc.devRef .tc main_cst_2) = _
  after_results <;> rfl
theorem src_2 : W2 m ρ c (Proc.devRef .tc main_v5) = Agg.withLoops (Agg.row0 (m ((c : Thread nD τ).loc main_arg1))) := by
  show StableHlo.after hostOps0_1 (StableHlo.after hostOps0 (W0 m ρ c)) (Proc.devRef .tc main_v5) = _
  after_results <;> rfl
theorem dst_2 : W2 m ρ c (Proc.devRef .tc main_v6) = Agg.withLoops (Agg.row1 (m ((c : Thread nD τ).loc main_arg1))) := by
  show StableHlo.after hostOps0_1 (StableHlo.after hostOps0 (W0 m ρ c)) (Proc.devRef .tc main_v6) = _
  after_results <;> rfl
theorem wts_2 : W2 m ρ c (Proc.devRef .tc main_v8) = Agg.weights (m ((c : Thread nD τ).loc main_arg2)) := by
  show StableHlo.after hostOps0_1 (StableHlo.after hostOps0 (W0 m ρ c)) (Proc.devRef .tc main_v8) = _
  after_results <;> rfl

/-- The per-node factor after the outlined select. -/
theorem dinv_2 : W2 m ρ c (Proc.devRef .tc main_v15) = Agg.dinv (Agg.withLoops (Agg.row1 (m ((c : Thread nD τ).loc main_arg1)))) (Agg.weights (m ((c : Thread nD τ).loc main_arg2))) := by
  refine (where_read1 (W1 m ρ c)).trans ?_
  rw [cmp_1, rsq_1, cst_1]
  rfl

/-- The edge scales entering the region. -/
theorem scale_3 : W3 m ρ c (Proc.devRef .tc main_v31) = Agg.scale (Agg.withLoops (Agg.row0 (m ((c : Thread nD τ).loc main_arg1)))) (Agg.withLoops (Agg.row1 (m ((c : Thread nD τ).loc main_arg1)))) (Agg.weights (m ((c : Thread nD τ).loc main_arg2))) := by
  refine (scale_read1 (W2 m ρ c)).trans ?_
  rw [dinv_2, src_2, dst_2, wts_2]
  rfl

/-! ## Buffers carried along unchanged from one boundary to the next -/

theorem keep5_main_arg4 : W5 m ρ c (Proc.devRef .tc main_arg4) = W4 m ρ c (Proc.devRef .tc main_arg4) := by
  show StableHlo.after hostOps1 (W4 m ρ c) (Proc.devRef .tc main_arg4) = _
  after_results <;> rfl
theorem at5_main_arg4 : W5 m ρ c (Proc.devRef .tc main_arg4) = m ((c : Thread nD τ).loc main_arg4) :=
  ((keep5_main_arg4 m ρ c).trans ((W4_of_ne m ρ c main_arg4 (by decide)).trans (keep3_main_arg4 m ρ c)))

theorem keep5_main_arg2 : W5 m ρ c (Proc.devRef .tc main_arg2) = W4 m ρ c (Proc.devRef .tc main_arg2) := by
  show StableHlo.after hostOps1 (W4 m ρ c) (Proc.devRef .tc main_arg2) = _
  after_results <;> rfl
theorem at6_main_arg2 : W6 m ρ c (Proc.devRef .tc main_arg2) = m ((c : Thread nD τ).loc main_arg2) :=
  ((W6_of_ne m ρ c main_arg2 (by decide)).trans ((keep5_main_arg2 m ρ c).trans ((W4_of_ne m ρ c main_arg2 (by decide)).trans (keep3_main_arg2 m ρ c))))

theorem keep5_main_v1 : W5 m ρ c (Proc.devRef .tc main_v1) = W4 m ρ c (Proc.devRef .tc main_v1) := by
  show StableHlo.after hostOps1 (W4 m ρ c) (Proc.devRef .tc main_v1) = _
  after_results <;> rfl
theorem at6_main_v1 : W6 m ρ c (Proc.devRef .tc main_v1) = Agg.row0 (m ((c : Thread nD τ).loc main_arg1)) :=
  ((W6_of_ne m ρ c main_v1 (by decide)).trans ((keep5_main_v1 m ρ c).trans ((W4_of_ne m ρ c main_v1 (by decide)).trans (row0_3 m ρ c))))

theorem keep5_main_v3 : W5 m ρ c (Proc.devRef .tc main_v3) = W4 m ρ c (Proc.devRef .tc main_v3) := by
  show StableHlo.after hostOps1 (W4 m ρ c) (Proc.devRef .tc main_v3) = _
  after_results <;> rfl
theorem at6_main_v3 : W6 m ρ c (Proc.devRef .tc main_v3) = Agg.row1 (m ((c : Thread nD τ).loc main_arg1)) :=
  ((W6_of_ne m ρ c main_v3 (by decide)).trans ((keep5_main_v3 m ρ c).trans ((W4_of_ne m ρ c main_v3 (by decide)).trans (row1_3 m ρ c))))

theorem keep5_main_arg5 : W5 m ρ c (Proc.devRef .tc main_arg5) = W4 m ρ c (Proc.devRef .tc main_arg5) := by
  show StableHlo.after hostOps1 (W4 m ρ c) (Proc.devRef .tc main_arg5) = _
  after_results <;> rfl
theorem keep9_main_arg5 : W9 m ρ c (Proc.devRef .tc main_arg5) = W6 m ρ c (Proc.devRef .tc main_arg5) := by
  show StableHlo.after hostOps2_2 (StableHlo.after hostOps2_1 (StableHlo.after hostOps2 (W6 m ρ c))) (Proc.devRef .tc main_arg5) = _
  after_results <;> rfl
theorem at9_main_arg5 : W9 m ρ c (Proc.devRef .tc main_arg5) = m ((c : Thread nD τ).loc main_arg5) :=
  ((keep9_main_arg5 m ρ c).trans ((W6_of_ne m ρ c main_arg5 (by decide)).trans ((keep5_main_arg5 m ρ c).trans ((W4_of_ne m ρ c main_arg5 (by decide)).trans (keep3_main_arg5 m ρ c)))))

theorem keep5_main_arg6 : W5 m ρ c (Proc.devRef .tc main_arg6) = W4 m ρ c (Proc.devRef .tc main_arg6) := by
  show StableHlo.after hostOps1 (W4 m ρ c) (Proc.devRef .tc main_arg6) = _
  after_results <;> rfl
theorem keep9_main_arg6 : W9 m ρ c (Proc.devRef .tc main_arg6) = W6 m ρ c (Proc.devRef .tc main_arg6) := by
  show StableHlo.after hostOps2_2 (StableHlo.after hostOps2_1 (StableHlo.after hostOps2 (W6 m ρ c))) (Proc.devRef .tc main_arg6) = _
  after_results <;> rfl
theorem keep11_main_arg6 : W11 m ρ c (Proc.devRef .tc main_arg6) = W10 m ρ c (Proc.devRef .tc main_arg6) := by
  show StableHlo.after hostOps3 (W10 m ρ c) (Proc.devRef .tc main_arg6) = _
  after_results <;> rfl
theorem at11_main_arg6 : W11 m ρ c (Proc.devRef .tc main_arg6) = m ((c : Thread nD τ).loc main_arg6) :=
  ((keep11_main_arg6 m ρ c).trans ((W10_of_ne m ρ c main_arg6 (by decide)).trans ((keep9_main_arg6 m ρ c).trans ((W6_of_ne m ρ c main_arg6 (by decide)).trans ((keep5_main_arg6 m ρ c).trans ((W4_of_ne m ρ c main_arg6 (by decide)).trans (keep3_main_arg6 m ρ c)))))))

theorem keep5_main_arg7 : W5 m ρ c (Proc.devRef .tc main_arg7) = W4 m ρ c (Proc.devRef .tc main_arg7) := by
  show StableHlo.after hostOps1 (W4 m ρ c) (Proc.devRef .tc main_arg7) = _
  after_results <;> rfl
theorem keep9_main_arg7 : W9 m ρ c (Proc.devRef .tc main_arg7) = W6 m ρ c (Proc.devRef .tc main_arg7) := by
  show StableHlo.after hostOps2_2 (StableHlo.after hostOps2_1 (StableHlo.after hostOps2 (W6 m ρ c))) (Proc.devRef .tc main_arg7) = _
  after_results <;> rfl
theorem keep11_main_arg7 : W11 m ρ c (Proc.devRef .tc main_arg7) = W10 m ρ c (Proc.devRef .tc main_arg7) := by
  show StableHlo.after hostOps3 (W10 m ρ c) (Proc.devRef .tc main_arg7) = _
  after_results <;> rfl
theorem at12_main_arg7 : W12 m ρ c (Proc.devRef .tc main_arg7) = m ((c : Thread nD τ).loc main_arg7) :=
  ((W12_of_ne m ρ c main_arg7 (by decide)).trans ((keep11_main_arg7 m ρ c).trans ((W10_of_ne m ρ c main_arg7 (by decide)).trans ((keep9_main_arg7 m ρ c).trans ((W6_of_ne m ρ c main_arg7 (by decide)).trans ((keep5_main_arg7 m ρ c).trans ((W4_of_ne m ρ c main_arg7 (by decide)).trans (keep3_main_arg7 m ρ c))))))))

theorem keep5_main_arg8 : W5 m ρ c (Proc.devRef .tc main_arg8) = W4 m ρ c (Proc.devRef .tc main_arg8) := by
  show StableHlo.after hostOps1 (W4 m ρ c) (Proc.devRef .tc main_arg8) = _
  after_results <;> rfl
theorem keep9_main_arg8 : W9 m ρ c (Proc.devRef .tc main_arg8) = W6 m ρ c (Proc.devRef .tc main_arg8) := by
  show StableHlo.after hostOps2_2 (StableHlo.after hostOps2_1 (StableHlo.after hostOps2 (W6 m ρ c))) (Proc.devRef .tc main_arg8) = _
  after_results <;> rfl
theorem keep11_main_arg8 : W11 m ρ c (Proc.devRef .tc main_arg8) = W10 m ρ c (Proc.devRef .tc main_arg8) := by
  show StableHlo.after hostOps3 (W10 m ρ c) (Proc.devRef .tc main_arg8) = _
  after_results <;> rfl
theorem at13_main_arg8 : W13 m ρ c (Proc.devRef .tc main_arg8) = m ((c : Thread nD τ).loc main_arg8) :=
  ((W13_of_ne m ρ c main_arg8 (by decide)).trans ((W12_of_ne m ρ c main_arg8 (by decide)).trans ((keep11_main_arg8 m ρ c).trans ((W10_of_ne m ρ c main_arg8 (by decide)).trans ((keep9_main_arg8 m ρ c).trans ((W6_of_ne m ρ c main_arg8 (by decide)).trans ((keep5_main_arg8 m ρ c).trans ((W4_of_ne m ρ c main_arg8 (by decide)).trans (keep3_main_arg8 m ρ c)))))))))

/-! ## The values, boundary by boundary -/

/-- The features times the first weight matrix. -/
abbrev feat1 : (⟨S100000x128, .f32⟩ : BufTy).Contents (Elt Ideal) := GraphNet.dense (m ((c : Thread nD τ).loc main_arg0)) (m ((c : Thread nD τ).loc main_arg3))
/-- The first round: aggregated, bias added, maximum with zero. -/
abbrev act1 : (⟨S100000x128, .f32⟩ : BufTy).Contents (Elt Ideal) :=
  GraphNet.relu (GraphNet.addBias (Agg.agg (m ((c : Thread nD τ).loc main_arg1)) (m ((c : Thread nD τ).loc main_arg2)) (feat1 m c)) (m ((c : Thread nD τ).loc main_arg4)))
/-- Times the second weight matrix. -/
abbrev feat2 : (⟨S100000x128, .f32⟩ : BufTy).Contents (Elt Ideal) := GraphNet.dense (act1 m c) (m ((c : Thread nD τ).loc main_arg5))
/-- The second round: aggregated, bias added. -/
abbrev out2 : (⟨S100000x128, .f32⟩ : BufTy).Contents (Elt Ideal) :=
  GraphNet.addBias (Agg.agg (m ((c : Thread nD τ).loc main_arg1)) (m ((c : Thread nD τ).loc main_arg2)) (feat2 m c)) (m ((c : Thread nD τ).loc main_arg6))
/-- Times the last weight matrix. -/
abbrev feat3 : (⟨S100000x128, .f32⟩ : BufTy).Contents (Elt Ideal) := GraphNet.dense (out2 m c) (m ((c : Thread nD τ).loc main_arg7))

/-- Region 0 leaves the first product in its output array. -/
theorem feat_4 : W4 m ρ c (Proc.devRef .tc main_v32) = feat1 m c := by
  refine (W4_arr m ρ c 2).trans ?_
  refine (Region0.final (V3 m ρ) c).trans ?_
  exact congrArg₂ GraphNet.dense (keep3_main_arg0 m ρ c) (keep3_main_arg3 m ρ c)

/-- The host's aggregation of it. -/
theorem agg_5 : W5 m ρ c (Proc.devRef .tc main_v45) = Agg.agg (m ((c : Thread nD τ).loc main_arg1)) (m ((c : Thread nD τ).loc main_arg2)) (feat1 m c) := by
  have h : W5 m ρ c (Proc.devRef .tc main_v45) = Agg.core (W4 m ρ c (Proc.devRef .tc main_v6)) (W4 m ρ c (Proc.devRef .tc main_v5)) (W4 m ρ c (Proc.devRef .tc main_v31)) (W4 m ρ c (Proc.devRef .tc main_v32)) := by
    show StableHlo.after hostOps1 (W4 m ρ c) (Proc.devRef .tc main_v45) = _
    after_results_simp <;> rfl
  rw [h, W4_of_ne m ρ c main_v6 (by decide), W4_of_ne m ρ c main_v5 (by decide), W4_of_ne m ρ c main_v31 (by decide), dst_3, src_3, scale_3, feat_4]
  rfl

/-- Region 1 leaves the first round's result in its output array. -/
theorem act_6 : W6 m ρ c (Proc.devRef .tc main_v46) = act1 m c := by
  refine (W6_arr m ρ c 2).trans ?_
  refine (Region1.final (V5 m ρ) c).trans ?_
  exact congrArg₂ Region1.whole (agg_5 m ρ c) (at5_main_arg4 m ρ c)

theorem keep9_main_v46 : W9 m ρ c (Proc.devRef .tc main_v46) = W6 m ρ c (Proc.devRef .tc main_v46) := by
  show StableHlo.after hostOps2_2 (StableHlo.after hostOps2_1 (StableHlo.after hostOps2 (W6 m ρ c))) (Proc.devRef .tc main_v46) = _
  after_results <;> rfl

/-- The second preparation of the edge columns and scales reads the rows and weights the first one read. -/
theorem src_9 : W9 m ρ c (Proc.devRef .tc main_v48) = Agg.withLoops (W6 m ρ c (Proc.devRef .tc main_v1)) := by
  show StableHlo.after hostOps2_2 (StableHlo.after hostOps2_1 (StableHlo.after hostOps2 (W6 m ρ c))) (Proc.devRef .tc main_v48) = _
  after_results <;> rfl
theorem dst_9 : W9 m ρ c (Proc.devRef .tc main_v49) = Agg.withLoops (W6 m ρ c (Proc.devRef .tc main_v3)) := by
  show StableHlo.after hostOps2_2 (StableHlo.after hostOps2_1 (StableHlo.after hostOps2 (W6 m ρ c))) (Proc.devRef .tc main_v49) = _
  after_results <;> rfl

/-- The outlined select (rsqrt where the degree is positive, else 0), read at any contents. -/
theorem where_read2 (V : Valuation τ sig (Elt Ideal)) :
    StableHlo.after hostOps2_1 V (Proc.devRef .tc main_v58)
      = select (V (Proc.devRef .tc main_v56)) (V (Proc.devRef .tc main_v57)) (broadcastInDim S100000 ![] bcast_S_S100000 (id (V (Proc.devRef .tc main_cst_12)))) := by
  after_results <;> rfl

/-- The edge scales from the per-node factor, read at any contents. -/
theorem scale_read2 (V : Valuation τ sig (Elt Ideal)) :
    StableHlo.after hostOps2_2 V (Proc.devRef .tc main_v74)
      = Agg.scaleCore (V (Proc.devRef .tc main_v58)) (V (Proc.devRef .tc main_v48)) (V (Proc.devRef .tc main_v49)) (V (Proc.devRef .tc main_v51)) := by
  after_results_simp
  finish_results
  rfl

theorem cmp_7 : W7 m ρ c (Proc.devRef .tc main_v56) = cmpf .ogt (Agg.deg (Agg.withLoops (W6 m ρ c (Proc.devRef .tc main_v3))) (Agg.weights (W6 m ρ c (Proc.devRef .tc main_arg2)))) (broadcastInDim S100000 ![] bcast_S_S100000 (constant S_ .f32 0x00000000#32)) := by
  show StableHlo.after hostOps2 (W6 m ρ c) (Proc.devRef .tc main_v56) = _
  after_results <;> rfl
theorem rsq_7 : W7 m ρ c (Proc.devRef .tc main_v57) = Host.rsqrt (Agg.deg (Agg.withLoops (W6 m ρ c (Proc.devRef .tc main_v3))) (Agg.weights (W6 m ρ c (Proc.devRef .tc main_arg2)))) := by
  show StableHlo.after hostOps2 (W6 m ρ c) (Proc.devRef .tc main_v57) = _
  after_results <;> rfl
theorem cst_7 : W7 m ρ c (Proc.devRef .tc main_cst_12) = constant (F := Ideal) S_ .f32 0x00000000#32 := by
  show StableHlo.after hostOps2 (W6 m ρ c) (Proc.devRef .tc main_cst_12) = _
  after_results <;> rfl
theorem src_8 : W8 m ρ c (Proc.devRef .tc main_v48) = Agg.withLoops (W6 m ρ c (Proc.devRef .tc main_v1)) := by
  show StableHlo.after hostOps2_1 (StableHlo.after hostOps2 (W6 m ρ c)) (Proc.devRef .tc main_v48) = _
  after_results <;> rfl
theorem dst_8 : W8 m ρ c (Proc.devRef .tc main_v49) = Agg.withLoops (W6 m ρ c (Proc.devRef .tc main_v3)) := by
  show StableHlo.after hostOps2_1 (StableHlo.after hostOps2 (W6 m ρ c)) (Proc.devRef .tc main_v49) = _
  after_results <;> rfl
theorem wts_8 : W8 m ρ c (Proc.devRef .tc main_v51) = Agg.weights (W6 m ρ c (Proc.devRef .tc main_arg2)) := by
  show StableHlo.after hostOps2_1 (StableHlo.after hostOps2 (W6 m ρ c)) (Proc.devRef .tc main_v51) = _
  after_results <;> rfl

/-- The per-node factor after the outlined select. -/
theorem dinv_8 : W8 m ρ c (Proc.devRef .tc main_v58) = Agg.dinv (Agg.withLoops (W6 m ρ c (Proc.devRef .tc main_v3))) (Agg.weights (W6 m ρ c (Proc.devRef .tc main_arg2))) := by
  refine (where_read2 (W7 m ρ c)).trans ?_
  rw [cmp_7, rsq_7, cst_7]
  rfl

/-- The edge scales entering the region. -/
theorem scale_9 : W9 m ρ c (Proc.devRef .tc main_v74) = Agg.scale (Agg.withLoops (W6 m ρ c (Proc.devRef .tc main_v1))) (Agg.withLoops (W6 m ρ c (Proc.devRef .tc main_v3))) (Agg.weights (W6 m ρ c (Proc.devRef .tc main_arg2))) := by
  refine (scale_read2 (W8 m ρ c)).trans ?_
  rw [dinv_8, src_8, dst_8, wts_8]
  rfl

/-- Region 2 leaves the second product in its output array. -/
theorem feat_10 : W10 m ρ c (Proc.devRef .tc main_v75) = feat2 m c := by
  refine (W10_arr m ρ c 2).trans ?_
  refine (Region2.final (V9 m ρ) c).trans ?_
  exact congrArg₂ GraphNet.dense ((keep9_main_v46 m ρ c).trans (act_6 m ρ c)) (at9_main_arg5 m ρ c)

/-- The host's aggregation of it. -/
theorem agg_11 : W11 m ρ c (Proc.devRef .tc main_v88) = Agg.agg (m ((c : Thread nD τ).loc main_arg1)) (m ((c : Thread nD τ).loc main_arg2)) (feat2 m c) := by
  have h : W11 m ρ c (Proc.devRef .tc main_v88) = Agg.core (W10 m ρ c (Proc.devRef .tc main_v49)) (W10 m ρ c (Proc.devRef .tc main_v48)) (W10 m ρ c (Proc.devRef .tc main_v74)) (W10 m ρ c (Proc.devRef .tc main_v75)) := by
    show StableHlo.after hostOps3 (W10 m ρ c) (Proc.devRef .tc main_v88) = _
    after_results_simp <;> rfl
  rw [h, W10_of_ne m ρ c main_v49 (by decide), W10_of_ne m ρ c main_v48 (by decide), W10_of_ne m ρ c main_v74 (by decide), dst_9, src_9, scale_9,
    at6_main_v1, at6_main_v3, at6_main_arg2, feat_10]
  rfl

/-- Region 3 adds the second bias. -/
theorem out_12 : W12 m ρ c (Proc.devRef .tc main_v89) = out2 m c := by
  refine (W12_arr m ρ c 2).trans ?_
  refine (Region3.final (V11 m ρ) c).trans ?_
  exact congrArg₂ Region3.whole (agg_11 m ρ c) (at11_main_arg6 m ρ c)

/-- Region 4 multiplies by the last weight matrix. -/
theorem feat_13 : W13 m ρ c (Proc.devRef .tc main_v90) = feat3 m c := by
  refine (W13_arr m ρ c 2).trans ?_
  refine (Region4.final (V12 m ρ) c).trans ?_
  exact congrArg₂ GraphNet.dense (out_12 m ρ c) (at12_main_arg7 m ρ c)

/-- Region 5 adds the last bias: the program's result is the network of the arguments' launch contents. -/
theorem result_14 : W14 m ρ c (Proc.devRef .tc main_v91) = net (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) := by
  refine (W14_arr m ρ c 2).trans ?_
  refine (Region5.final (V13 m ρ) c).trans ?_
  exact congrArg₂ Region5.whole (feat_13 m ρ c) (at13_main_arg8 m ρ c)

end Cert.KernelIdeal.Net

end
-- ==== Proof.AggReference.lean ====
/-
  One round of neighbourhood aggregation, as the reference program's host operations spell it.

  The edge list `e` holds a source row and a target row of 600000 node numbers; 100000 self loops (node n to node n,
  weight 1) are appended to both and to the edge weights `w`. The degree of a node is the sum of the weights of the
  edges that end in it; an edge's scale is rsqrt(deg src) · weight · rsqrt(deg dst), with rsqrt read as 0 at a degree
  that is not positive. The aggregation of node features `h` adds, into row n, the scaled feature rows `h[src]` of
  all edges with target n. Negative node numbers are wrapped once by 100000 before a row is fetched, as the host's
  indexing does. Nothing here is opened by the proof: both programs apply this same function, and only the value
  `h` going in differs in how it was computed.
-/
import proofs.«108665_j1778116460904_1_alg».proof.Proof.Gen.ReferenceIdeal

noncomputable section

namespace Cert.ReferenceIdeal.Agg

open Cert.ReferenceIdeal Cert.ReferenceIdeal.Gen Idealize.ShloMosaic

variable {F : FTy → Type} [FloatOps F]

/-- The edge list's source row. -/
def row0 (e : (⟨S2x600000, .i32⟩ : BufTy).Contents (Elt F)) : (⟨S600000, .i32⟩ : BufTy).Contents (Elt F) :=
  shapeCast _ (extractStridedSlice S1x600000 ![0, 0] e slices_S2x600000_S1x600000_0_0) shapeCasts_S1x600000_S600000

/-- The edge list's target row. -/
def row1 (e : (⟨S2x600000, .i32⟩ : BufTy).Contents (Elt F)) : (⟨S600000, .i32⟩ : BufTy).Contents (Elt F) :=
  shapeCast _ (extractStridedSlice S1x600000 ![1, 0] e slices_S2x600000_S1x600000_1_0) shapeCasts_S1x600000_S600000

/-- A row of node numbers with the 100000 self loops appended. -/
def withLoops (r : (⟨S600000, .i32⟩ : BufTy).Contents (Elt F)) : (⟨S700000, .i32⟩ : BufTy).Contents (Elt F) :=
  concatenate S700000 0 [⟨S600000, r⟩, ⟨S100000, (iotaInDim S100000 32 0)⟩] concatenates_S600000_S100000_S700000_d0

/-- The edge weights with weight 1 appended for every self loop. -/
def weights (w : (⟨S600000, .f32⟩ : BufTy).Contents (Elt F)) : (⟨S700000, .f32⟩ : BufTy).Contents (Elt F) :=
  concatenate S700000 0 [⟨S600000, w⟩, ⟨S100000, (broadcastInDim S100000 ![] bcast_S_S100000 (constant S_ .f32 0x3F800000#32))⟩] concatenates_S600000_S100000_S700000_d0

/-- The degree of every node: the sum of the weights `wf` of the edges whose target `d` it is. -/
def deg (d : (⟨S700000, .i32⟩ : BufTy).Contents (Elt F)) (wf : (⟨S700000, .f32⟩ : BufTy).Contents (Elt F)) : (⟨S100000, .f32⟩ : BufTy).Contents (Elt F) :=
  Host.scatterAdd scatter_S100000_S700000x1_S700000_n_0_0_1 (broadcastInDim S100000 ![] bcast_S_S100000 (constant S_ .f32 0x00000000#32)) (broadcastInDim S700000x1 ![0] bcast_S700000_S700000x1_0 d) wf

/-- rsqrt of the degree where the degree is positive, 0 elsewhere. -/
def dinv (d : (⟨S700000, .i32⟩ : BufTy).Contents (Elt F)) (wf : (⟨S700000, .f32⟩ : BufTy).Contents (Elt F)) : (⟨S100000, .f32⟩ : BufTy).Contents (Elt F) :=
  select (cmpf .ogt (deg d wf) (broadcastInDim S100000 ![] bcast_S_S100000 (constant S_ .f32 0x00000000#32))) (Host.rsqrt (deg d wf)) (broadcastInDim S100000 ![] bcast_S_S100000 (id (constant S_ .f32 0x00000000#32)))

/-- Every edge's scale from the per-node factor `dv`: dv[src] · weight · dv[dst], node numbers wrapped. -/
def scaleCore (dv : (⟨S100000, .f32⟩ : BufTy).Contents (Elt F)) (s d : (⟨S700000, .i32⟩ : BufTy).Contents (Elt F)) (wf : (⟨S700000, .f32⟩ : BufTy).Contents (Elt F)) : (⟨S700000, .f32⟩ : BufTy).Contents (Elt F) :=
  mulf (mulf (Host.gather gather_S100000_S700000x1_S700000_n_0_n_n_0_1_1 dv (broadcastInDim S700000x1 ![0] bcast_S700000_S700000x1_0 (select (cmpi .slt s (broadcastInDim S700000 ![] bcast_S_S700000 (constantI S_ 32 0#32))) (addi s (broadcastInDim S700000 ![] bcast_S_S700000 (constantI S_ 32 100000#32))) s))) wf) (Host.gather gather_S100000_S700000x1_S700000_n_0_n_n_0_1_1 dv (broadcastInDim S700000x1 ![0] bcast_S700000_S700000x1_0 (select (cmpi .slt d (broadcastInDim S700000 ![] bcast_S_S700000 (constantI S_ 32 0#32))) (addi d (broadcastInDim S700000 ![] bcast_S_S700000 (constantI S_ 32 100000#32))) d)))

/-- Every edge's scale rsqrt(deg src) · weight · rsqrt(deg dst), from the source nodes `s`, the target nodes `d` and
    the weights `wf` of all 700000 edges. -/
def scale (s d : (⟨S700000, .i32⟩ : BufTy).Contents (Elt F)) (wf : (⟨S700000, .f32⟩ : BufTy).Contents (Elt F)) : (⟨S700000, .f32⟩ : BufTy).Contents (Elt F) :=
  scaleCore (dinv d wf) s d wf

/-- The zero array with, for every edge, the source row of `h` times the edge's scale added into the target row. -/
def core (d s : (⟨S700000, .i32⟩ : BufTy).Contents (Elt F)) (nrm : (⟨S700000, .f32⟩ : BufTy).Contents (Elt F)) (h : (⟨S100000x128, .f32⟩ : BufTy).Contents (Elt F)) : (⟨S100000x128, .f32⟩ : BufTy).Contents (Elt F) :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 d)
    (mulf (Host.gather gather_S100000x128_S700000x1_S700000x128_1_0_n_n_0_1_1128 h (broadcastInDim S700000x1 ![0] bcast_S700000_S700000x1_0 (select (cmpi .slt s (broadcastInDim S700000 ![] bcast_S_S700000 (constantI S_ 32 0#32))) (addi s (broadcastInDim S700000 ![] bcast_S_S700000 (constantI S_ 32 100000#32))) s)))
      (broadcastInDim S700000x128 ![0, 1] bcast_S700000x1_S700000x128_0_1 (broadcastInDim S700000x1 ![0] bcast_S700000_S700000x1_0 nrm)))

/-- The aggregation of the features `h` over the graph with edge list `e` and edge weights `w`. -/
def agg (e : (⟨S2x600000, .i32⟩ : BufTy).Contents (Elt F)) (w : (⟨S600000, .f32⟩ : BufTy).Contents (Elt F)) (h : (⟨S100000x128, .f32⟩ : BufTy).Contents (Elt F)) : (⟨S100000x128, .f32⟩ : BufTy).Contents (Elt F) :=
  core (withLoops (row1 e)) (withLoops (row0 e)) (scale (withLoops (row0 e)) (withLoops (row1 e)) (weights w)) h

end Cert.ReferenceIdeal.Agg

end
-- ==== Proof.Reference.lean ====
/-
  The reference program's result as the same network.

  The reference computes, on the host, the product with the first weight matrix, the aggregation over the graph, the
  bias and the maximum with zero, then the second product, aggregation and bias, then the last product and bias. Its
  products are the dense products of the network, its bias additions (a vector laid as a row and repeated down the
  rows, then added) the network's, its maximum against the zero array the network's, and its aggregation is the one
  function both programs share.
-/
import proofs.«108665_j1778116460904_1_alg».proof.Proof.Gen.ReferenceIdeal.Run
import proofs.«108665_j1778116460904_1_alg».proof.Proof.AggReference
import proofs.«108665_j1778116460904_1_alg».proof.Proof.GraphNet
import Idealize.ShloMosaic.Lib.Pipeline.Value

set_option maxRecDepth 65536

noncomputable section

namespace Cert.ReferenceIdeal.Net

open Cert.ReferenceIdeal Cert.ReferenceIdeal.Gen Idealize.ShloMosaic Idealize.ShloMosaic.TcCoe Idealize.SL.Sem
open Idealize.ShloMosaic.ValueIdx

/-- The host's product is the dense product. -/
theorem dot_eq (A : FVec Ideal S100000x128 .f32) (B : FVec Ideal S128x128 .f32) :
    Host.dotGeneral dot_S100000x128_S128x128_S100000x128_1_0_0_1_n_n none A B = GraphNet.dense A B := rfl

/-- The host's maximum against the zero array is the maximum with zero. -/
theorem relu_eq (Y : FVec Ideal S100000x128 .f32) :
    maximumf Y (broadcastInDim S100000x128 ![] bcast_S_S100000x128 (constant S_ .f32 0x00000000#32)) = GraphNet.relu Y := rfl

/-- The host's bias addition: the vector laid as a row, repeated down the rows, added. -/
theorem bias_eq (X : FVec Ideal S100000x128 .f32) (v : FVec Ideal S128 .f32) :
    addf X (broadcastInDim S100000x128 ![0, 1] bcast_S1x128_S100000x128_0_1 (broadcastInDim S1x128 ![1] bcast_S128_S1x128_1 v))
      = GraphNet.addBias X v := by
  funext i
  obtain ⟨a, b, rfl⟩ : ∃ (a : Fin 100000) (b : Fin 128), i = ix2 a b := ⟨i 0, i 1, eq_ix2 i⟩
  refine congrArg₂ (· + ·) rfl ?_
  refine (broadcastInDim_apply _ _ _ (ix2 a b) (ix2 (0 : Fin 1) b) fun ax => ?_).trans
    (broadcastInDim_apply _ _ _ (ix2 (0 : Fin 1) b) (ix1 b) fun ax => ?_)
  · match ax with
    | ⟨0, _⟩ => rfl
    | ⟨1, _⟩ => rfl
  · match ax with
    | ⟨0, _⟩ => rfl

set_option maxRecDepth 65536 in
/-- The host's aggregation chain, spelt out, is the aggregation function. -/
theorem agg_eq (e : IVec S2x600000 32) (w : FVec Ideal S600000 .f32) (h : FVec Ideal S100000x128 .f32) :
    Host.scatterAdd (F := Ideal) scatter_S100000x128_S700000x1_S700000x128_1_0_0_1 (broadcastInDim S100000x128 ![] bcast_S_S100000x128 (constant S_ .f32 0x00000000#32)) (broadcastInDim S700000x1 ![0] bcast_S700000_S700000x1_0 (concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0))
      (mulf (Host.gather gather_S100000x128_S700000x1_S700000x128_1_0_n_n_0_1_1128 h (broadcastInDim S700000x1 ![0] bcast_S700000_S700000x1_0 (select (cmpi .slt (concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0) (broadcastInDim S700000 ![] bcast_S_S700000 (constantI S_ 32 0#32))) (addi (concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0) (broadcastInDim S700000 ![] bcast_S_S700000 (constantI S_ 32 100000#32))) (concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0)))) (broadcastInDim S700000x128 ![0, 1] bcast_S700000x1_S700000x128_0_1 (broadcastInDim S700000x1 ![0] bcast_S700000_S700000x1_0 (mulf (mulf (Host.gather gather_S100000_S700000x1_S700000_n_0_n_n_0_1_1 (select (cmpf .ogt (Host.scatterAdd scatter_S100000_S700000x1_S700000_n_0_0_1 (broadcastInDim S100000 ![] bcast_S_S100000 (constant S_ .f32 0x00000000#32)) (broadcastInDim S700000x1 ![0] bcast_S700000_S700000x1_0 (concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0)) (concatenate S700000 0 [⟨S600000, w⟩, ⟨S100000, (broadcastInDim S100000 ![] bcast_S_S100000 (constant S_ .f32 0x3F800000#32))⟩] concatenates_S600000_S100000_S700000_d0)) (broadcastInDim S100000 ![] bcast_S_S100000 (constant S_ .f32 0x00000000#32))) (Host.rsqrt (Host.scatterAdd scatter_S100000_S700000x1_S700000_n_0_0_1 (broadcastInDim S100000 ![] bcast_S_S100000 (constant S_ .f32 0x00000000#32)) (broadcastInDim S700000x1 ![0] bcast_S700000_S700000x1_0 (concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0)) (concatenate S700000 0 [⟨S600000, w⟩, ⟨S100000, (broadcastInDim S100000 ![] bcast_S_S100000 (constant S_ .f32 0x3F800000#32))⟩] concatenates_S600000_S100000_S700000_d0))) (broadcastInDim S100000 ![] bcast_S_S100000 (id (constant S_ .f32 0x00000000#32)))) (broadcastInDim S700000x1 ![0] bcast_S700000_S700000x1_0 (select (cmpi .slt (concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0) (broadcastInDim S700000 ![] bcast_S_S700000 (constantI S_ 32 0#32))) (addi (concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0) (broadcastInDim S700000 ![] bcast_S_S700000 (constantI S_ 32 100000#32))) (concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0)))) (concatenate S700000 0 [⟨S600000, w⟩, ⟨S100000, (broadcastInDim S100000 ![] bcast_S_S100000 (constant S_ .f32 0x3F800000#32))⟩] concatenates_S600000_S100000_S700000_d0)) (Host.gather gather_S100000_S700000x1_S700000_n_0_n_n_0_1_1 (select (cmpf .ogt (Host.scatterAdd scatter_S100000_S700000x1_S700000_n_0_0_1 (broadcastInDim S100000 ![] bcast_S_S100000 (constant S_ .f32 0x00000000#32)) (broadcastInDim S700000x1 ![0] bcast_S700000_S700000x1_0 (concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0)) (concatenate S700000 0 [⟨S600000, w⟩, ⟨S100000, (broadcastInDim S100000 ![] bcast_S_S100000 (constant S_ .f32 0x3F800000#32))⟩] concatenates_S600000_S100000_S700000_d0)) (broadcastInDim S100000 ![] bcast_S_S100000 (constant S_ .f32 0x00000000#32))) (Host.rsqrt (Host.scatterAdd scatter_S100000_S700000x1_S700000_n_0_0_1 (broadcastInDim S100000 ![] bcast_S_S100000 (constant S_ .f32 0x00000000#32)) (broadcastInDim S700000x1 ![0] bcast_S700000_S700000x1_0 (concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0)) (concatenate S700000 0 [⟨S600000, w⟩, ⟨S100000, (broadcastInDim S100000 ![] bcast_S_S100000 (constant S_ .f32 0x3F800000#32))⟩] concatenates_S600000_S100000_S700000_d0))) (broadcastInDim S100000 ![] bcast_S_S100000 (id (constant S_ .f32 0x00000000#32)))) (broadcastInDim S700000x1 ![0] bcast_S700000_S700000x1_0 (select (cmpi .slt (concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0) (broadcastInDim S700000 ![] bcast_S_S700000 (constantI S_ 32 0#32))) (addi (concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0) (broadcastInDim S700000 ![] bcast_S_S700000 (constantI S_ 32 100000#32))) (concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0))))))))
      = Agg.agg (F := Ideal) e w h := rfl

/-- The network, with the reference's own spelling of the aggregation. -/
def net (x : (⟨S100000x128, .f32⟩ : BufTy).Contents (Elt Ideal)) (e : (⟨S2x600000, .i32⟩ : BufTy).Contents (Elt Ideal))
    (w : (⟨S600000, .f32⟩ : BufTy).Contents (Elt Ideal))
    (W1 : (⟨S128x128, .f32⟩ : BufTy).Contents (Elt Ideal)) (b1 : (⟨S128, .f32⟩ : BufTy).Contents (Elt Ideal))
    (W2 : (⟨S128x128, .f32⟩ : BufTy).Contents (Elt Ideal)) (b2 : (⟨S128, .f32⟩ : BufTy).Contents (Elt Ideal))
    (W3 : (⟨S128x128, .f32⟩ : BufTy).Contents (Elt Ideal)) (b3 : (⟨S128, .f32⟩ : BufTy).Contents (Elt Ideal)) :
    (⟨S100000x128, .f32⟩ : BufTy).Contents (Elt Ideal) :=
  GraphNet.addBias (GraphNet.dense (GraphNet.addBias (Agg.agg e w (GraphNet.dense (GraphNet.relu
    (GraphNet.addBias (Agg.agg e w (GraphNet.dense x W1)) b1)) W2)) b2) W3) b3

variable (m : (ℓ : Loc nD τ sig) → Buf (Elt Ideal) ℓ) (c : Dev nD)

/-- The reference's result is the network of its arguments. -/
theorem result_eq : Value.res_main_v98 (F := Ideal) m c
    = net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  unfold Value.res_main_v98 net
  -- the last bias and the last product
  refine (bias_eq _ _).trans (congrArg₂ GraphNet.addBias ?_ rfl)
  refine (dot_eq _ _).trans (congrArg₂ GraphNet.dense ?_ rfl)
  -- the second round
  refine (bias_eq _ _).trans (congrArg₂ GraphNet.addBias ?_ rfl)
  refine (agg_eq _ _ _).trans (congrArg (Agg.agg _ _) ?_)
  refine (dot_eq _ _).trans (congrArg₂ GraphNet.dense ?_ rfl)
  -- the first round
  refine (relu_eq _).trans (congrArg GraphNet.relu ?_)
  refine (bias_eq _ _).trans (congrArg₂ GraphNet.addBias ?_ rfl)
  refine (agg_eq _ _ _).trans (congrArg (Agg.agg _ _) ?_)
  exact dot_eq _ _

end Cert.ReferenceIdeal.Net

end
-- ==== Proof.lean ====
/-
  A Pallas two-layer graph convolution against its jnp reference, at the ideal (extended real) reading.

  Both programs compute, for node features x, an edge list e with edge weights w, weight matrices W1, W2, W3 and
  biases b1, b2, b3:
      h1 = relu (A (x · W1) + b1),   h2 = A (h1 · W2) + b2,   out = h2 · W3 + b3,
  where A is the degree-normalised aggregation over the graph with self loops (rsqrt(deg src) · weight · rsqrt(deg dst)
  per edge, summed into the target node). The kernel runs the three products and the three bias additions as six
  pipelined regions of 20 grid points each (5000 rows at a time) and leaves A to the host; the reference does
  everything on the host. On the extended reals a region's blockwise product is the whole product (each output entry
  is the same sum over k, only the tiling differs), a blockwise bias addition the whole one, the conversions to bf16
  ahead of the matrix unit the identity, and the aggregation is one and the same function of its inputs in both
  programs: it is carried through unopened. So both results are one function, `net`, of the arguments. No law of
  the extended reals beyond that is used, and the finiteness of the inputs is not needed.

  The frames of the two kernel programs are the generated ones; the reference's frame is its generated run with the
  result dropped; the idealization rewrote nothing, so `preserves` is trivial.
-/
import proofs.«108665_j1778116460904_1_alg».proof.Defs
import proofs.«108665_j1778116460904_1_alg».proof.Proof.Gen.Kernel
import proofs.«108665_j1778116460904_1_alg».proof.Proof.Gen.Kernel.Frame
import proofs.«108665_j1778116460904_1_alg».proof.Proof.Gen.KernelIdeal
import proofs.«108665_j1778116460904_1_alg».proof.Proof.Gen.KernelIdeal.Frame
import proofs.«108665_j1778116460904_1_alg».proof.Proof.Gen.ReferenceIdeal
import proofs.«108665_j1778116460904_1_alg».proof.Proof.Gen.ReferenceIdeal.Run
import proofs.«108665_j1778116460904_1_alg».proof.Proof.Gen.Pre_finite_inputs
import proofs.«108665_j1778116460904_1_alg».proof.Proof.KernelRun
import proofs.«108665_j1778116460904_1_alg».proof.Proof.KernelValue
import proofs.«108665_j1778116460904_1_alg».proof.Proof.Reference
import Idealize.ShloMosaic.Adequacy
import Idealize.ShloMosaic.Init

set_option maxRecDepth 65536

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs spell the aggregation with the same host operations over the same shapes: one function. -/
theorem agg_same : @Cert.ReferenceIdeal.Agg.agg Ideal _ = @Cert.KernelIdeal.Agg.agg Ideal _ := rfl

/-- So the two spellings of the network are one function. -/
theorem net_same : @Cert.ReferenceIdeal.Net.net = @Cert.KernelIdeal.Net.net := by
  unfold Cert.ReferenceIdeal.Net.net Cert.KernelIdeal.Net.net
  rw [agg_same]

/-- Both programs end at the network of the arguments' launch contents. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Net.result_14 m ρ c), (h c).2⟩)
      (Cert.KernelIdeal.Net.run_named m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8⟩ := hagree c
    rw [(h c).1, Cert.ReferenceIdeal.Net.result_eq, h0, h1, h2, h3, h4, h5, h6, h7, h8, net_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
